-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_arg5 : FVec F S4096x16 .f32) (main_arg6 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S4096x16 .f32 := Host.absf main_arg5
  let main_cst_8 : FVec F S_ .f32 := constant S_ .f32 0x7F800000#32
  let main_v25 : FVec F S4096x16 .f32 := broadcastInDim S4096x16 ![] bcast_S_S4096x16 main_cst_8
  let main_v26 : IVec S4096x16 1 := cmpf .olt main_v24 main_v25
  let main_c_9 : IVec S_ 1 := constantI S_ 1 1#1
  let main_v27 : IVec S_ 1 := (fun x v => Host.reduce IntOp.andi x v reducesTo_S4096x16_S_d0_1 h_S_) main_v26 main_c_9
  let main_v28 : IVec S_ 1 := andi main_v23 main_v27
  let main_v29 : FVec F S16x4096 .f32 := Host.absf main_arg6
  let main_cst_10 : FVec F S_ .f32 := constant S_ .f32 0x7F800000#32
  let main_v30 : FVec F S16x4096 .f32 := broadcastInDim S16x4096 ![] bcast_S_S16x4096 main_cst_10
  let main_v31 : IVec S16x4096 1 := cmpf .olt main_v29 main_v30
  let main_c_11 : IVec S_ 1 := constantI S_ 1 1#1
  let main_v32 : IVec S_ 1 := (fun x v => Host.reduce IntOp.andi x v reducesTo_S16x4096_S_d0_1 h_S_) main_v31 main_c_11
  let main_v33 : IVec S_ 1 := andi main_v28 main_v32
  main_v33

def fn {F : FTy → Type} [FloatOps F] (main_arg0 : FVec F S8x2048x4096 .f32) (main_arg1 : FVec F S4096x4096 .f32) (main_arg2 : FVec F S4096 .f32) (main_arg3 : FVec F S4096x16 .f32) (main_arg4 : FVec F S16x4096 .f32) (main_arg5 : FVec F S4096x16 .f32) (main_arg6 : FVec F S16x4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_arg5 main_arg6 main_v13 main_v16
-- ==== Kernel.lean ====
abbrev S8x2048x4096 : Shape := ⟨3, ![8, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S16384x4096 : Shape := ⟨2, ![16384, 4096]⟩
abbrev S1x4096 : Shape := ⟨2, ![1, 4096]⟩
abbrev S1024x1024 : Shape := ⟨2, ![1024, 1024]⟩
abbrev S1024x16 : Shape := ⟨2, ![1024, 16]⟩
abbrev S16x1024 : Shape := ⟨2, ![16, 1024]⟩
abbrev S1024x512 : Shape := ⟨2, ![1024, 512]⟩
abbrev S512x1024 : Shape := ⟨2, ![512, 1024]⟩
abbrev S1x1024 : Shape := ⟨2, ![1, 1024]⟩

abbrev nBuf : Space → Nat
  | .hbm => 12
  | .vmem => 21
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4096x16, .f32⟩
  | .hbm, ⟨6, _⟩ => ⟨S16x4096, .f32⟩
  | .hbm, ⟨7, _⟩ => ⟨S16384x4096, .f32⟩
  | .hbm, ⟨8, _⟩ => ⟨S1x4096, .f32⟩
  | .hbm, ⟨9, _⟩ => ⟨S4096x4096, .bf16⟩
  | .hbm, ⟨10, _⟩ => ⟨S16384x4096, .f32⟩
  | .hbm, ⟨11, _⟩ => ⟨S8x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x16, .f32⟩
  | .local _ .vmem, ⟨3, _⟩ => ⟨S1024x16, .f32⟩
  | .local _ .vmem, ⟨4, _⟩ => ⟨S16x1024, .f32⟩
  | .local _ .vmem, ⟨5, _⟩ => ⟨S16x1024, .f32⟩
  | .local _ .vmem, ⟨6, _⟩ => ⟨S1024x16, .f32⟩
  | .local _ .vmem, ⟨7, _⟩ => ⟨S1024x16, .f32⟩
  | .local _ .vmem, ⟨8, _⟩ => ⟨S16x1024, .f32⟩
  | .local _ .vmem, ⟨9, _⟩ => ⟨S16x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x512, .f32⟩
  | .local _ .vmem, ⟨13, _⟩ => ⟨S1024x512, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![16, 4, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S8x2048x4096_S16384x4096 : S8x2048x4096.ShapeCasts S16384x4096
  shapeCasts_S4096_S1x4096 : S4096.ShapeCasts S1x4096
  inb_S1024x16_S1024x16_0_0 : ∀ a, (![0, 0] : Fin 2 → Nat) a + S1024x16.size a ≤ S1024x16.size a
  h_S1024x16 : 0 < S1024x16.numel
  inb_S16x1024_S16x1024_0_0 : ∀ a, (![0, 0] : Fin 2 → Nat) a + S16x1024.size a ≤ S16x1024.size a
  h_S16x1024 : 0 < S16x1024.numel
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S8x2048x4096 : S16384x4096.ShapeCasts S8x2048x4096
  dot_S1024x16_S16x1024_S1024x1024_1_0_0_1_n_n_wf : DotDims.WF S1024x16 S16x1024 S1024x1024 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S4096x16.size a
  hwx0_1 : ∀ i : grid0.Coords, EltTy.bits .f32 = 32 ∨ (Rect.block (s := S4096x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S16x4096.size a
  hwx0_4 : ∀ i : grid0.Coords, EltTy.bits .f32 = 32 ∨ (Rect.block (s := S16x4096) S16x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x4096.size a
  hwx0_5 : ∀ i : grid0.Coords, EltTy.bits .bf16 = 32 ∨ (Rect.block (s := S4096x4096) S1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S16384x4096.size a
  hwx1_0 : ∀ i : grid1.Coords, EltTy.bits .f32 = 32 ∨ (Rect.block (s := S16384x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x4096.size a
  hwx1_1 : ∀ i : grid1.Coords, EltTy.bits .bf16 = 32 ∨ (Rect.block (s := S4096x4096) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S16384x4096.size a
  hwx1_3 : ∀ i : grid1.Coords, EltTy.bits .f32 = 32 ∨ (Rect.block (s := S16384x4096) S1024x1024.size (cc1_transform_3 i) (hinb1_3 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S16x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩
abbrev S1x1x4096 : Shape := ⟨3, ![1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4096x16, .f32⟩
  | .hbm, ⟨6, _⟩ => ⟨S16x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S8x2048x4096, .f32⟩
  | .hbm, ⟨18, _⟩ => ⟨S1x1x4096, .f32⟩
  | .hbm, ⟨19, _⟩ => ⟨S8x2048x4096, .f32⟩
  | .hbm, ⟨20, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S4096x16_S16x4096_S4096x4096_1_0_0_1_n_n_wf : DotDims.WF S4096x16 S16x4096 S4096x4096 [1] [0] [0] [1] [] []
  dot_S8x2048x4096_S4096x4096_S8x2048x4096_2_0_01_1_n_n_wf : DotDims.WF S8x2048x4096 S4096x4096 S8x2048x4096 [2] [0] [0, 1] [1] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S8x2048x4096_S4096x4096_S8x2048x4096_2_0_01_1_n_n : DotDims S8x2048x4096 S4096x4096 S8x2048x4096 where
  lhsContracting := [2]
  rhsContracting := [0]
  lhsNonContracting := [0, 1]
  rhsNonContracting := [1]
  lhsBatch := []
  rhsBatch := []
  wf := dot_S8x2048x4096_S4096x4096_S8x2048x4096_2_0_01_1_n_n_wf

class Facts : Prop extends Facts₀ where

variable [Facts]
-- ==== Proof.WordAdapterBody.lean ====
/-
  The first kernel region: the adapted weight, one 1024 x 1024 tile per grid point.

  At grid point (i, j) the body loads the tile (i, j) of W, the row blocks i of a0 and a1 (1024 x 16) and the column
  blocks j of b0 and b1 (16 x 1024), and stores, through the whole output tile, the value
  W + (c (a0 b0)) (c (a1 b1)) narrowed to the output's format. Nothing else is written and nothing is kept between
  points, so the tile the body leaves is one function of the five tiles it loaded.
-/
import proofs.«178012_j56581899157528_2_alg».proof.Proof.Gen.Kernel.Launch
import proofs.«178012_j56581899157528_2_alg».proof.Proof.Gen.Kernel.Skeleton
import proofs.«178012_j56581899157528_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Adapter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The whole-tile rectangles the body loads and stores through. -/
abbrev rT : Rect S1024x1024 := Rect.unit (s := S1024x1024) ![0, 0] S1024x1024.size inb_S1024x1024_S1024x1024_0_0
abbrev rA : Rect S1024x16 := Rect.unit (s := S1024x16) ![0, 0] S1024x16.size inb_S1024x16_S1024x16_0_0
abbrev rB : Rect S16x1024 := Rect.unit (s := S16x1024) ![0, 0] S16x1024.size inb_S16x1024_S16x1024_0_0

/-- The output tile after the body, from the five input tiles: its one store, through the whole tile. -/
def tile (w : Vec F S1024x1024 .f32) (a0 : Vec F S1024x16 .f32) (b0 : Vec F S16x1024 .f32) (a1 : Vec F S1024x16 .f32)
    (b1 : Vec F S16x1024 .f32) : Vec F S1024x1024 .bf16 :=
  View.canon [⟨rT, k0_pay1 (View.ld a0 rA) (View.ld b0 rB) (View.ld a1 rA) (View.ld b1 rB) (View.ld w rT)⟩]

/-- The one store goes through the whole tile, so it covers it. -/
theorem tile_cover (p : Vec F S1024x1024 .bf16) (y : S1024x1024.Idx) :
    ∃ pc ∈ ([⟨rT, p⟩] : List (View.Piece (Elt F) S1024x1024 .bf16)), y ∈ pc.1.set :=
  ⟨_, List.mem_cons_self, View.mem_set_unit_zero (by funext a; fin_cases a <;> rfl) inb_S1024x1024_S1024x1024_0_0 y⟩

set_option maxHeartbeats 2000000 in
/-- The body on whole staging buffers, the five inputs at their tiles and the output at anything, runs to the end
    leaving the inputs as they were and the output at `tile` of them. -/
theorem body_triple (c : Dev nD) (E : Set ℕ) (i : grid0.Coords)
    (arg2 : Memref sig .tc .vmem S1024x1024 .f32) (harg2 : arg2.IsWhole) (arg3 : Memref sig .tc .vmem S1024x16 .f32) (harg3 : arg3.IsWhole)
    (arg4 : Memref sig .tc .vmem S16x1024 .f32) (harg4 : arg4.IsWhole) (arg5 : Memref sig .tc .vmem S1024x16 .f32) (harg5 : arg5.IsWhole)
    (arg6 : Memref sig .tc .vmem S16x1024 .f32) (harg6 : arg6.IsWhole) (arg7 : Memref sig .tc .vmem S1024x1024 .bf16) (harg7 : arg7.IsWhole)
    (x0 : Vec F S1024x1024 .f32) (x1 : Vec F S1024x16 .f32) (x2 : Vec F S16x1024 .f32) (x3 : Vec F S1024x16 .f32) (x4 : Vec F S16x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (tile x0 x1 x2 x3 x4)) -∗ K ⟨⟩))
      ⊢ wp frame (wpE (defs₀ (F := F)) Variants.none c none) E
          (cc0__build_kernel_body i arg2 harg2 arg3 harg3 arg4 harg4 arg5 harg5 arg6 harg6 arg7 harg7) K := by
  simp only [cc0__build_kernel_body_eq_skeleton]; unfold cc0__build_kernel_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile_cover _)

end Cert.Kernel.Adapter

end
-- ==== Proof.WordAdapterData.lean ====
/-
  The first kernel region's proof data and its body obligation.

  The region's arrays are what it finds on entry. After the body at point t every input's staging buffer still holds
  the tile of its array the point's index map selects, and the output's holds the adapted-weight tile computed from
  those five tiles; nothing is carried between points and nothing is owed.
-/
import proofs.«178012_j56581899157528_2_alg».proof.Proof.WordAdapterBody

set_option maxRecDepth 16384

noncomputable section

namespace Cert.Kernel.Adapter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's tile at point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: arrays as found; each input's buffer left at its tile, the output's at the adapted-weight tile; the
    scoped rest and the generator register pass through untouched. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => tile (blk V c 0 t) (blk V c 1 t) (blk V c 2 t) (blk V c 3 t) (blk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) :
    (dat V c).after 5 t = tile (blk V c 0 t) (blk V c 1 t) (blk V c 2 t) (blk V c 3 t) (blk V c 4 t) := by dsimp only [dat]

/-- Input window 0's current staging buffer holds its tile at every point, fetched there or not: where it is not fetched its
    block index has not moved since the point before. -/
theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
/-- Input window 1's current staging buffer holds its tile at every point, fetched there or not: where it is not fetched its
    block index has not moved since the point before. -/
theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
/-- Input window 2's current staging buffer holds its tile at every point, fetched there or not: where it is not fetched its
    block index has not moved since the point before. -/
theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
/-- Input window 3's current staging buffer holds its tile at every point, fetched there or not: where it is not fetched its
    block index has not moved since the point before. -/
theorem before_3 (c : Dev nD) (t : Fin cfg0.N) (d) : (dat V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
/-- Input window 4's current staging buffer holds its tile at every point, fetched there or not: where it is not fetched its
    block index has not moved since the point before. -/
theorem before_4 (c : Dev nD) (t : Fin cfg0.N) (d) : (dat V c).before 4 t d = blk V c 4 t :=
  ((dat V c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

set_option maxHeartbeats 2000000 in
/-- The body at any point: the inputs' buffers hold their tiles, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dat (F := F) V c) (defs₀ (F := F)) Variants.none () Set.univ := fun t => by
  rw [bigSep_W0, bigSep_W0]
  exact sound_body V c t

end Cert.Kernel.Adapter

end
-- ==== Proof.WordAccumBody.lean ====
/-
  The second kernel region's body: one step of a matrix product accumulated over the contracted axis.

  The grid is (16, 4, 8); the last coordinate k walks the eight 512-wide slices of the contracted axis. At a point the
  body first, if k = 0, stores zero through the whole accumulator; then it loads the 1024 x 512 tile of the left
  operand and the 512 x 1024 tile of the weight, reads the accumulator back, and stores accumulator + tile product
  through the whole accumulator; last, if k = 7, it reads the accumulator back once more and stores
  accumulator + bias row (spread over the rows) through the whole output tile. Since each store goes through the
  whole buffer, a read-back sees exactly the value of the store before it. So there are three kinds of point:
  the first step (k = 0), a middle step, and the last step (k = 7).
-/
import proofs.«178012_j56581899157528_2_alg».proof.Proof.Gen.Kernel.Launch
import proofs.«178012_j56581899157528_2_alg».proof.Proof.Gen.Kernel.Skeleton
import proofs.«178012_j56581899157528_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Accum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The whole-buffer rectangles the body loads and stores through. -/
abbrev rT : Rect S1024x1024 := Rect.unit (s := S1024x1024) ![0, 0] S1024x1024.size inb_S1024x1024_S1024x1024_0_0
abbrev rX : Rect S1024x512 := Rect.unit (s := S1024x512) ![0, 0] S1024x512.size inb_S1024x512_S1024x512_0_0
abbrev rK : Rect S512x1024 := Rect.unit (s := S512x1024) ![0, 0] S512x1024.size inb_S512x1024_S512x1024_0_0
abbrev rB : Rect S1x1024 := Rect.unit (s := S1x1024) ![0, 0] S1x1024.size inb_S1x1024_S1x1024_0_0

theorem zero_off2 : (![0, 0] : Fin 2 → Nat) = fun _ => 0 := by funext a; fin_cases a <;> rfl

/-- The point is a first step: the contracted axis' coordinate is 0 (the body's first branch, as it computes it). -/
abbrev isFirst (i : grid1.Coords) : Prop :=
  (Scalar.cmpi .ne (Scalar.extui (Scalar.cmpi .eq (BitVec.ofNat 32 (i 2).val) 0#32)) 0#32) = 1#1
/-- The point is a last step: the coordinate is 7 (the body's second branch). -/
abbrev isLast (i : grid1.Coords) : Prop := k1_cond2 i = 1#1

/-- One accumulation step on values: the accumulator `s` plus the product of the two tiles. -/
abbrev step (x : Vec F S1024x512 .f32) (s : Vec F S1024x1024 .f32) (kb : Vec F S512x1024 .bf16) : Vec F S1024x1024 .f32 :=
  k1_pay2 (View.ld x rX) s (View.ld kb rK)
/-- The output tile of a last step: the accumulator plus the bias row. -/
abbrev emit (s : Vec F S1024x1024 .f32) (b : Vec F S1x1024 .f32) : Vec F S1024x1024 .f32 :=
  k1_pay3 s (View.ld b rB)

set_option maxHeartbeats 4000000 in
/-- A FIRST step, on whole buffers: the accumulator, at anything, ends at zero plus the tile product. -/
theorem run_first (c : Dev nD) (E : Set ℕ) (i : grid1.Coords)
    (arg3 : Memref sig .tc .vmem S1024x512 .f32) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : isFirst i) (hc1 : ¬isLast i)
    (x : Vec F S1024x512 .f32) (kb : Vec F S512x1024 .bf16) (K : PUnit → sProp 𝕄) :
    iprop(owns (c : Thread nD τ) arg3 fullShare x ∗ owns (c : Thread nD τ) arg4 fullShare kb ∗ (∃ d, owns (c : Thread nD τ) arg7 fullShare d)
        ∗ (iprop(owns (c : Thread nD τ) arg3 fullShare x ∗ owns (c : Thread nD τ) arg4 fullShare kb
            ∗ owns (c : Thread nD τ) arg7 fullShare (step x k1_pay1 kb)) -∗ K ⟨⟩))
      ⊢ wp frame (wpE (defs₀ (F := F)) Variants.none c none) E
          (cc1__main_kernel i arg3 harg3 arg4 harg4 arg5 harg5 arg6 harg6 arg7 harg7) K := by
  simp only [cc1__main_kernel_eq_skeleton]; unfold cc1__main_kernel_skel
  unfold owns
  iintro ⟨⟨%f3, %hf3, H3⟩, ⟨%f4, %hf4, H4⟩, ⟨%d7, %f7, -, H7⟩, Hk⟩
  subst hf3; subst hf4
  sl_exec (disch := first | exact hc0 | exact hc1)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  sl_unfold_run_names
  rw [View.read_writes_eq_canon _ _ _ (fun y => ⟨_, List.mem_cons_self, View.mem_set_unit_zero zero_off2 inb_S1024x1024_S1024x1024_0_0 y⟩), View.canon_cons_unit_zero zero_off2]
  simp only [View.readAt_eq_ld, View.readCov_unit_zero (S := S1024x1024) _ zero_off2, View.ld_unit_zero (S := S1024x1024) zero_off2]
  try rfl

set_option maxHeartbeats 4000000 in
/-- A MIDDLE step, on whole buffers: the accumulator, at `s`, ends at `s` plus the tile product. -/
theorem run_middle (c : Dev nD) (E : Set ℕ) (i : grid1.Coords)
    (arg3 : Memref sig .tc .vmem S1024x512 .f32) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬isFirst i) (hc1 : ¬isLast i)
    (x : Vec F S1024x512 .f32) (kb : Vec F S512x1024 .bf16) (s : Vec F S1024x1024 .f32) (K : PUnit → sProp 𝕄) :
    iprop(owns (c : Thread nD τ) arg3 fullShare x ∗ owns (c : Thread nD τ) arg4 fullShare kb ∗ owns (c : Thread nD τ) arg7 fullShare s
        ∗ (iprop(owns (c : Thread nD τ) arg3 fullShare x ∗ owns (c : Thread nD τ) arg4 fullShare kb
            ∗ owns (c : Thread nD τ) arg7 fullShare (step x s kb)) -∗ K ⟨⟩))
      ⊢ wp frame (wpE (defs₀ (F := F)) Variants.none c none) E
          (cc1__main_kernel i arg3 harg3 arg4 harg4 arg5 harg5 arg6 harg6 arg7 harg7) K := by
  simp only [cc1__main_kernel_eq_skeleton]; unfold cc1__main_kernel_skel
  unfold owns
  iintro ⟨⟨%f3, %hf3, H3⟩, ⟨%f4, %hf4, H4⟩, ⟨%f7, %hf7, H7⟩, Hk⟩
  subst hf3; subst hf4; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  sl_unfold_run_names
  rw [View.read_writes_eq_canon _ _ _ (fun y => ⟨_, List.mem_cons_self, View.mem_set_unit_zero zero_off2 inb_S1024x1024_S1024x1024_0_0 y⟩), View.canon_cons_unit_zero zero_off2]
  simp only [View.readAt_eq_ld, View.readCov_unit_zero (S := S1024x1024) _ zero_off2, View.ld_unit_zero (S := S1024x1024) zero_off2]
  try rfl

set_option maxHeartbeats 4000000 in
/-- A LAST step, on whole buffers: the accumulator, at `s`, ends at `s` plus the tile product, and the output tile, at
    anything, at that plus the bias row. -/
theorem run_last (c : Dev nD) (E : Set ℕ) (i : grid1.Coords)
    (arg3 : Memref sig .tc .vmem S1024x512 .f32) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬isFirst i) (hc1 : isLast i)
    (x : Vec F S1024x512 .f32) (kb : Vec F S512x1024 .bf16) (b : Vec F S1x1024 .f32) (s : Vec F S1024x1024 .f32) (K : PUnit → sProp 𝕄) :
    iprop(owns (c : Thread nD τ) arg3 fullShare x ∗ owns (c : Thread nD τ) arg4 fullShare kb ∗ owns (c : Thread nD τ) arg5 fullShare b ∗ (∃ d, owns (c : Thread nD τ) arg6 fullShare d) ∗ owns (c : Thread nD τ) arg7 fullShare s
        ∗ (iprop(owns (c : Thread nD τ) arg3 fullShare x ∗ owns (c : Thread nD τ) arg4 fullShare kb ∗ owns (c : Thread nD τ) arg5 fullShare b
            ∗ owns (c : Thread nD τ) arg6 fullShare (emit (step x s kb) b) ∗ owns (c : Thread nD τ) arg7 fullShare (step x s kb)) -∗ K ⟨⟩))
      ⊢ wp frame (wpE (defs₀ (F := F)) Variants.none c none) E
          (cc1__main_kernel i arg3 harg3 arg4 harg4 arg5 harg5 arg6 harg6 arg7 harg7) K := by
  simp only [cc1__main_kernel_eq_skeleton]; unfold cc1__main_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  subst hf3; subst hf4; subst hf5; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (fun y => ⟨_, List.mem_cons_self, View.mem_set_unit_zero zero_off2 inb_S1024x1024_S1024x1024_0_0 y⟩), View.canon_cons_unit_zero zero_off2]
    simp only [View.readAt_eq_ld, View.readCov_unit_zero (S := S1024x1024) _ zero_off2, View.ld_unit_zero (S := S1024x1024) zero_off2]
    try rfl
  iexists _; isplitr
  swap; · iexact H7
  ipureintro
  sl_unfold_run_names
  rw [View.read_writes_eq_canon _ _ _ (fun y => ⟨_, List.mem_cons_self, View.mem_set_unit_zero zero_off2 inb_S1024x1024_S1024x1024_0_0 y⟩), View.canon_cons_unit_zero zero_off2]
  simp only [View.readAt_eq_ld, View.readCov_unit_zero (S := S1024x1024) _ zero_off2, View.ld_unit_zero (S := S1024x1024) zero_off2]
  try rfl

end Cert.Kernel.Accum

end
-- ==== Proof.WordAccumData.lean ====
/-
  The second kernel region's proof data and its body obligation.

  The accumulator lives in a scratch buffer the kernel keeps from one grid point to the next. Write acc n for what it
  holds after point n: at a point whose contracted-axis coordinate is 0 it is zero plus that point's tile product,
  at every other point what point n - 1 left plus that point's tile product. The region's invariant before point
  n + 1 names the accumulator at acc n (before point 0 it holds anything). The output tile is stored only at the
  points whose coordinate is 7 — the points at which it is written back — and there it is acc n plus the bias row;
  at the other points the output's staging buffer is handed back as it was found.
-/
import proofs.«178012_j56581899157528_2_alg».proof.Proof.WordAccumBody

set_option maxRecDepth 16384

noncomputable section

namespace Cert.Kernel.Accum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's tile at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The branch conditions over the grid -/

theorem first_iff : ∀ t : Fin cfg1.N, isFirst (grid1.coords t) ↔ t.val % 8 = 0 :=
  (by decide +kernel : ∀ t : Fin grid1.N, isFirst (grid1.coords t) ↔ t.val % 8 = 0)
theorem last_iff : ∀ t : Fin cfg1.N, isLast (grid1.coords t) ↔ t.val % 8 = 7 :=
  (by decide +kernel : ∀ t : Fin grid1.N, isLast (grid1.coords t) ↔ t.val % 8 = 7)
/-- Away from the last steps the output window is idle and is not written back; at them it is live. -/
theorem out_idle : ∀ t : Fin cfg1.N, ¬isLast (grid1.coords t) → cfg1.idle 3 (grid1.coords t) = true := by decide +kernel
theorem out_noFlush : ∀ t : Fin cfg1.N, ¬isLast (grid1.coords t) → (cfg1.win 3).flush t = false := by decide +kernel
theorem out_live : ∀ t : Fin cfg1.N, isLast (grid1.coords t) → cfg1.idle 3 (grid1.coords t) = false := by decide +kernel

/-! ## The accumulator point by point -/

/-- The accumulator after point n. -/
def acc (c : Dev nD) : (n : ℕ) → n < cfg1.N → Vec F S1024x1024 .f32
  | 0, h => step (blk V c 0 ⟨0, h⟩) k1_pay1 (blk V c 1 ⟨0, h⟩)
  | n + 1, h => step (blk V c 0 ⟨n + 1, h⟩) (if (n + 1) % 8 = 0 then k1_pay1 else acc c n (Nat.lt_of_succ_lt h)) (blk V c 1 ⟨n + 1, h⟩)

theorem acc_zero (c : Dev nD) (h : 0 < cfg1.N) : acc V c 0 h = step (blk V c 0 ⟨0, h⟩) k1_pay1 (blk V c 1 ⟨0, h⟩) := rfl
theorem acc_succ (c : Dev nD) (n : ℕ) (h : n + 1 < cfg1.N) :
    acc V c (n + 1) h = step (blk V c 0 ⟨n + 1, h⟩) (if (n + 1) % 8 = 0 then k1_pay1 else acc V c n (Nat.lt_of_succ_lt h)) (blk V c 1 ⟨n + 1, h⟩) := rfl

theorem acc_first (c : Dev nD) (t : Fin cfg1.N) (h : t.val % 8 = 0) :
    acc V c t.val t.isLt = step (blk V c 0 t) k1_pay1 (blk V c 1 t) := by
  obtain ⟨n, hn⟩ := t
  cases n with
  | zero => rfl
  | succ n => exact congrArg (fun s => step (blk V c 0 ⟨n + 1, hn⟩) s (blk V c 1 ⟨n + 1, hn⟩)) (if_pos h)

theorem acc_next (c : Dev nD) (t : Fin cfg1.N) (h : ¬t.val % 8 = 0) :
    acc V c t.val t.isLt
      = step (blk V c 0 t) (acc V c (t.val - 1) (Nat.lt_of_le_of_lt (Nat.sub_le _ _) t.isLt)) (blk V c 1 t) := by
  obtain ⟨n, hn⟩ := t
  cases n with
  | zero => exact absurd (Nat.zero_mod _) h
  | succ n => exact congrArg (fun s => step (blk V c 0 ⟨n + 1, hn⟩) s (blk V c 1 ⟨n + 1, hn⟩)) (if_neg h)

/-! ## The invariant -/

/-- The accumulator's scratch buffer, whole. -/
abbrev scM : Memref sig .tc .vmem S1024x1024 .f32 := Memref.whole cc1_scratch0

/-- The core's scoped buffers that are neither a staging buffer of this region nor the accumulator (the first region's
    staging buffers), each at some contents, beside a resource `S` for the accumulator. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S)

theorem restWith_mono (c : Dev nD) {S S' : sProp 𝕄} (h : S ⊢ S') : restWith (F := F) c S ⊢ restWith c S' := by
  unfold restWith
  iintro ⟨A0, A1, A2, A3, A4, A5, A6, A7, A8, A9, A10, A11, HS⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  iapply h; iexact HS

/-- The accumulator's resource taken out of the rest, with the way to put another one back. -/
theorem restWith_swap (c : Dev nD) (S S' : sProp 𝕄) : restWith (F := F) c S ⊢ iprop(S ∗ (S' -∗ restWith c S')) := by
  unfold restWith
  iintro ⟨A0, A1, A2, A3, A4, A5, A6, A7, A8, A9, A10, A11, HS⟩
  isplitl [HS]; · iexact HS
  iintro HS'
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  iexact HS'

/-- The class invariant with the accumulator spelled as a buffer owned at some contents. -/
theorem PhiA_eq (c : Dev nD) :
    (Pipeline.ΦA spec1 c : sProp 𝕄) = iprop(restWith c iprop(∃ d, owns (c : Thread nD τ) scM fullShare d) ∗ (∃ r, prngReg c r)) := by
  unfold Pipeline.ΦA restWith; rw [scopedRest1_eq]; simp only [scM, owns_whole]; try rfl

/-- The invariant before position n: before the first point the class's; afterwards the accumulator at what the point
    before left. -/
def Phi (c : Dev nD) : (n : ℕ) → n ≤ cfg1.N → sProp 𝕄
  | 0, _ => Pipeline.ΦA spec1 c
  | n + 1, hn => iprop(restWith c (owns (c : Thread nD τ) scM fullShare (acc V c n hn)) ∗ (∃ r, prngReg c r))

theorem Phi_zero (c : Dev nD) (n : ℕ) (h : n ≤ cfg1.N) (hz : n = 0) : Phi V c n h = Pipeline.ΦA spec1 c := by
  subst hz; rfl
theorem Phi_succ (c : Dev nD) (n : ℕ) (hn : n < cfg1.N) :
    Phi V c (n + 1) hn = iprop(restWith c (owns (c : Thread nD τ) scM fullShare (acc V c n hn)) ∗ (∃ r, prngReg c r)) := rfl
theorem Phi_pos (c : Dev nD) (n : ℕ) (h : n ≤ cfg1.N) (hz : n ≠ 0) :
    Phi V c n h = iprop(restWith c (owns (c : Thread nD τ) scM fullShare (acc V c (n - 1) (by omega))) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => emit (acc V c t.val t.isLt) (blk V c 2 t)
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) : (dat V c).Φ t.castSucc = Phi V c t.val (Nat.le_of_lt t.isLt) := by
  dsimp only [dat]; simp only [Fin.coe_castSucc]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = emit (acc V c t.val t.isLt) (blk V c 2 t) := by dsimp only [dat]

theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_in (c : Dev nD) (t : Fin cfg1.N) (w : Fin cfg1.W) (hw : ∀ i, cfg1.idle w i = false) :
    (dat V c).leavesExact w t = owns (c : Thread nD τ) ((cfg1.win w).stage (cfg1.slots t w)) fullShare ((dat V c).after w t) := by
  unfold Dat.leavesExact; rw [hw]

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = Phi V c (t.val + 1) t.isLt from rfl, Phi_succ]
  rw [leaves_in V c t 0 (fun _ => rfl), leaves_in V c t 1 (fun _ => rfl), leaves_in V c t 2 (fun _ => rfl), after_0, after_1, after_2]
  have hN : t.val < 512 := lt_of_lt_of_eq t.isLt (show cfg1.N = 512 from N_1)
  by_cases h0 : t.val % 8 = 0
  · -- a first step
    have h1 : ¬t.val % 8 = 7 := by omega
    have hc0 : isFirst (grid1.coords t) := (first_iff t).mpr h0
    have hc1 : ¬isLast (grid1.coords t) := fun h => h1 ((last_iff t).mp h)
    rw [Dat.leavesExact_idle (dat V c) 3 t (out_idle t hc1) (out_noFlush t hc1), acc_first V c t h0]
    have hPhi : (dat V c).Φ t.castSucc ⊢ iprop(restWith c iprop(∃ d, owns (c : Thread nD τ) scM fullShare d) ∗ (∃ r, prngReg c r)) := by
      rw [Phi_castSucc V c t]
      by_cases hz : t.val = 0
      · rw [Phi_zero V c _ _ hz, PhiA_eq]
      · rw [Phi_pos V c _ _ hz]
        exact sep_mono (restWith_mono c (by iintro H; iexists _; iexact H)) .rfl
    iintro ⟨HΦ, Ho, ⟨%d0, H0⟩, ⟨%d1, H1⟩, ⟨%d2, H2⟩, H3⟩
    ihave HΦ' := hPhi $$ HΦ
    icases HΦ' with ⟨HR, Hg⟩
    ihave HR' := (restWith_swap c _ (owns (c : Thread nD τ) scM fullShare (step (blk V c 0 t) k1_pay1 (blk V c 1 t)))) $$ HR
    icases HR' with ⟨HS, Hback⟩
    iapply (run_first c Set.univ (grid1.coords t) _ _ _ _ _ _ _ _ scM (Memref.isWhole_whole _) hc0 hc1 (blk V c 0 t) (blk V c 1 t) _)
    isplitl [H0]; · iexact H0
    isplitl [H1]; · iexact H1
    isplitl [HS]; · iexact HS
    iintro ⟨H0, H1, HS⟩
    isplitl [HS Hback Hg]
    · isplitl [HS Hback]
      · iapply Hback; iexact HS
      iexact Hg
    isplitl [Ho]; · iexact Ho
    isplitl [H0]; · iexact H0
    isplitl [H1]; · iexact H1
    isplitl [H2]; · iexact H2
    iexact H3
  · have hz : t.val ≠ 0 := fun h => h0 (by rw [h])
    have hc0 : ¬isFirst (grid1.coords t) := fun h => h0 ((first_iff t).mp h)
    rw [acc_next V c t h0, Phi_castSucc V c t, Phi_pos V c _ _ hz]
    by_cases h1 : t.val % 8 = 7
    · -- a last step
      have hc1 : isLast (grid1.coords t) := (last_iff t).mpr h1
      rw [show (dat V c).leavesExact 3 t = owns (c : Thread nD τ) (st1_3 t) fullShare ((dat V c).after 3 t) from by
        unfold Dat.leavesExact; rw [out_live t hc1], after_3, acc_next V c t h0]
      iintro ⟨⟨HR, Hg⟩, Ho, ⟨%d0, H0⟩, ⟨%d1, H1⟩, ⟨%d2, H2⟩, ⟨%d3, H3⟩⟩
      ihave HR' := (restWith_swap c _ (owns (c : Thread nD τ) scM fullShare
        (step (blk V c 0 t) (acc V c (t.val - 1) (Nat.lt_of_le_of_lt (Nat.sub_le _ _) t.isLt)) (blk V c 1 t)))) $$ HR
      icases HR' with ⟨HS, Hback⟩
      iapply (run_last c Set.univ (grid1.coords t) _ _ _ _ _ _ _ _ scM (Memref.isWhole_whole _) hc0 hc1 (blk V c 0 t) (blk V c 1 t) (blk V c 2 t)
        (acc V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hback Hg]
      · isplitl [HS Hback]
        · iapply Hback; iexact HS
        iexact Hg
      isplitl [Ho]; · iexact Ho
      isplitl [H0]; · iexact H0
      isplitl [H1]; · iexact H1
      isplitl [H2]; · iexact H2
      iexact H3
    · -- a middle step
      have hc1 : ¬isLast (grid1.coords t) := fun h => h1 ((last_iff t).mp h)
      rw [Dat.leavesExact_idle (dat V c) 3 t (out_idle t hc1) (out_noFlush t hc1)]
      iintro ⟨⟨HR, Hg⟩, Ho, ⟨%d0, H0⟩, ⟨%d1, H1⟩, ⟨%d2, H2⟩, H3⟩
      ihave HR' := (restWith_swap c _ (owns (c : Thread nD τ) scM fullShare
        (step (blk V c 0 t) (acc V c (t.val - 1) (Nat.lt_of_le_of_lt (Nat.sub_le _ _) t.isLt)) (blk V c 1 t)))) $$ HR
      icases HR' with ⟨HS, Hback⟩
      iapply (run_middle c Set.univ (grid1.coords t) _ _ _ _ _ _ _ _ scM (Memref.isWhole_whole _) hc0 hc1 (blk V c 0 t) (blk V c 1 t)
        (acc V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hback Hg]
      · isplitl [HS Hback]
        · iapply Hback; iexact HS
        iexact Hg
      isplitl [Ho]; · iexact Ho
      isplitl [H0]; · iexact H0
      isplitl [H1]; · iexact H1
      isplitl [H2]; · iexact H2
      iexact H3

theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = Phi V c 0 (Nat.zero_le _) from rfl, Phi_zero V c 0 _ rfl]

/-- After the last point the invariant gives the class's back: the accumulator's named contents are forgotten. -/
theorem hout (c : Dev nD) : (dat V c).Φ (Fin.last cfg1.N) ⊢ Pipeline.ΦA spec1 c := by
  have hne : (Fin.last cfg1.N).val ≠ 0 := by rw [Fin.val_last]; have : cfg1.N = 512 := N_1; omega
  rw [show (dat V c).Φ (Fin.last cfg1.N) = Phi V c (Fin.last cfg1.N).val (Nat.le_of_lt_succ (Fin.last cfg1.N).isLt) from rfl,
    Phi_pos V c _ _ hne, PhiA_eq]
  exact sep_mono (restWith_mono c (by iintro H; iexists _; iexact H)) .rfl

end Cert.Kernel.Accum

end
-- ==== Proof.WordWhole.lean ====
/-
  The whole program: two reshapes on the host, the two kernel regions, one reshape on the host.

  The unscoped buffers' contents are followed from the launch to the return: after the first two reshapes; after the
  first region, whose arrays then hold what its write-backs leave (the inputs as found, the adapted weight in its
  result); after the second region likewise (its result the accumulated product plus the bias row); after the last
  reshape. Every argument array is written by no host line and is an output of no region, so walking back through
  these contents each argument ends as launched; and the program's result is the last contents at its buffer.
-/
import proofs.«178012_j56581899157528_2_alg».proof.Proof.WordAdapterData
import proofs.«178012_j56581899157528_2_alg».proof.Proof.WordAccumData
import proofs.«178012_j56581899157528_2_alg».proof.Proof.Gen.Kernel.Regions
import Idealize.ShloMosaic.Lib.Pipeline.RegionsLoop
import Idealize.ShloMosaic.Lib.Pipeline.FrameSuffix

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- At launch. -/
abbrev at0 : Dev nD → Valuation τ sig (Elt F) := fun c b => (s₀ m ρ).mem ((c : Dev nD), b)
/-- After the two reshapes: the first region's entry. -/
abbrev at1 : Dev nD → Valuation τ sig (Elt F) := fun c => StableHlo.after hostOps0 (at0 m ρ c)
abbrev in1 : (c : Dev nD) → (b : Ref sig .tc) → Buf (Elt F) ((c : Thread nD τ).loc b) := fun c b => at1 m ρ c b
/-- After the first region: its arrays at what the pipeline leaves, every other buffer as entered. -/
def at2 (c : Dev nD) : Valuation τ sig (Elt F) :=
  Pipeline.withArrays spec0 c (at1 m ρ c) fun w => (Adapter.dat (in1 m ρ) c).arrAt w cfg0.N
theorem at2_arr (c : Dev nD) (w : Fin cfg0.W) :
    at2 m ρ c (Proc.devRef .tc (Pipeline.arrRef spec0 w)) = (Adapter.dat (in1 m ρ) c).arrAt w cfg0.N := by
  unfold at2; exact Pipeline.withArrays_arr spec0 launch0.win.arr_inj c _ _ w
theorem at2_of_ne (c : Dev nD) (b : Ref sig .tc) (hb : ∀ w, Pipeline.arrRef spec0 w ≠ b) :
    at2 m ρ c (Proc.devRef .tc b) = at1 m ρ c (Proc.devRef .tc b) := by
  unfold at2; exact Pipeline.withArrays_of_ne spec0 c _ _ b hb
abbrev in2 : (c : Dev nD) → (b : Ref sig .tc) → Buf (Elt F) ((c : Thread nD τ).loc b) := fun c b => at2 m ρ c b
theorem left0 (c : Dev nD) (w : Fin cfg0.W) : (Adapter.dat (in1 m ρ) c).arrAt w cfg0.N = in2 m ρ c (Pipeline.arrRef spec0 w) :=
  (at2_arr m ρ c w).symm
theorem kept0 (c : Dev nD) : ∀ b, b ∉ Finset.univ.image (Pipeline.arrRef spec0) → in2 m ρ c b = in1 m ρ c b :=
  fun b hb => at2_of_ne m ρ c b fun w e => hb (Finset.mem_image.mpr ⟨w, Finset.mem_univ _, e⟩)
/-- After the second region. -/
def at3 (c : Dev nD) : Valuation τ sig (Elt F) :=
  Pipeline.withArrays spec1 c (at2 m ρ c) fun w => (Accum.dat (in2 m ρ) c).arrAt w cfg1.N
theorem at3_arr (c : Dev nD) (w : Fin cfg1.W) :
    at3 m ρ c (Proc.devRef .tc (Pipeline.arrRef spec1 w)) = (Accum.dat (in2 m ρ) c).arrAt w cfg1.N := by
  unfold at3; exact Pipeline.withArrays_arr spec1 launch1.win.arr_inj c _ _ w
theorem at3_of_ne (c : Dev nD) (b : Ref sig .tc) (hb : ∀ w, Pipeline.arrRef spec1 w ≠ b) :
    at3 m ρ c (Proc.devRef .tc b) = at2 m ρ c (Proc.devRef .tc b) := by
  unfold at3; exact Pipeline.withArrays_of_ne spec1 c _ _ b hb
abbrev in3 : (c : Dev nD) → (b : Ref sig .tc) → Buf (Elt F) ((c : Thread nD τ).loc b) := fun c b => at3 m ρ c b
theorem left1 (c : Dev nD) (w : Fin cfg1.W) : (Accum.dat (in2 m ρ) c).arrAt w cfg1.N = in3 m ρ c (Pipeline.arrRef spec1 w) :=
  (at3_arr m ρ c w).symm
theorem kept1 (c : Dev nD) : ∀ b, b ∉ Finset.univ.image (Pipeline.arrRef spec1) → in3 m ρ c b = in2 m ρ c b :=
  fun b hb => at3_of_ne m ρ c b fun w e => hb (Finset.mem_image.mpr ⟨w, Finset.mem_univ _, e⟩)
/-- After the last reshape: the return. -/
abbrev at4 : Dev nD → Valuation τ sig (Elt F) := fun c => StableHlo.after hostOps2 (at3 m ρ c)

/-! ## The arguments end as launched -/

theorem at4_main_arg0 (c : Dev nD) : at4 m ρ c (Proc.devRef .tc main_arg0) = m ((c : Thread nD τ).loc main_arg0) :=
  calc at4 m ρ c (Proc.devRef .tc main_arg0)
    _ = at3 m ρ c (Proc.devRef .tc main_arg0) := StableHlo.after_of_writes_sub hostOps2 _ hostOps2_writes (r := main_arg0) (by decide)
    _ = at2 m ρ c (Proc.devRef .tc main_arg0) := at3_of_ne m ρ c main_arg0 (by decide)
    _ = at1 m ρ c (Proc.devRef .tc main_arg0) := at2_of_ne m ρ c main_arg0 (by decide)
    _ = at0 m ρ c (Proc.devRef .tc main_arg0) := StableHlo.after_of_writes_sub hostOps0 _ hostOps0_writes (r := main_arg0) (by decide)
    _ = m ((c : Thread nD τ).loc main_arg0) := rfl
theorem at4_main_arg1 (c : Dev nD) : at4 m ρ c (Proc.devRef .tc main_arg1) = m ((c : Thread nD τ).loc main_arg1) :=
  calc at4 m ρ c (Proc.devRef .tc main_arg1)
    _ = at3 m ρ c (Proc.devRef .tc main_arg1) := StableHlo.after_of_writes_sub hostOps2 _ hostOps2_writes (r := main_arg1) (by decide)
    _ = at2 m ρ c (Proc.devRef .tc main_arg1) := at3_of_ne m ρ c main_arg1 (by decide)
    _ = at1 m ρ c (Proc.devRef .tc main_arg1) := (at2_arr m ρ c 0).trans (((Adapter.dat (in1 m ρ) c).arrAt_in 0 rfl _).trans (Adapter.A_eq (in1 m ρ) c 0))
    _ = at0 m ρ c (Proc.devRef .tc main_arg1) := StableHlo.after_of_writes_sub hostOps0 _ hostOps0_writes (r := main_arg1) (by decide)
    _ = m ((c : Thread nD τ).loc main_arg1) := rfl
theorem at4_main_arg2 (c : Dev nD) : at4 m ρ c (Proc.devRef .tc main_arg2) = m ((c : Thread nD τ).loc main_arg2) :=
  calc at4 m ρ c (Proc.devRef .tc main_arg2)
    _ = at3 m ρ c (Proc.devRef .tc main_arg2) := StableHlo.after_of_writes_sub hostOps2 _ hostOps2_writes (r := main_arg2) (by decide)
    _ = at2 m ρ c (Proc.devRef .tc main_arg2) := at3_of_ne m ρ c main_arg2 (by decide)
    _ = at1 m ρ c (Proc.devRef .tc main_arg2) := at2_of_ne m ρ c main_arg2 (by decide)
    _ = at0 m ρ c (Proc.devRef .tc main_arg2) := StableHlo.after_of_writes_sub hostOps0 _ hostOps0_writes (r := main_arg2) (by decide)
    _ = m ((c : Thread nD τ).loc main_arg2) := rfl
theorem at4_main_arg3 (c : Dev nD) : at4 m ρ c (Proc.devRef .tc main_arg3) = m ((c : Thread nD τ).loc main_arg3) :=
  calc at4 m ρ c (Proc.devRef .tc main_arg3)
    _ = at3 m ρ c (Proc.devRef .tc main_arg3) := StableHlo.after_of_writes_sub hostOps2 _ hostOps2_writes (r := main_arg3) (by decide)
    _ = at2 m ρ c (Proc.devRef .tc main_arg3) := at3_of_ne m ρ c main_arg3 (by decide)
    _ = at1 m ρ c (Proc.devRef .tc main_arg3) := (at2_arr m ρ c 1).trans (((Adapter.dat (in1 m ρ) c).arrAt_in 1 rfl _).trans (Adapter.A_eq (in1 m ρ) c 1))
    _ = at0 m ρ c (Proc.devRef .tc main_arg3) := StableHlo.after_of_writes_sub hostOps0 _ hostOps0_writes (r := main_arg3) (by decide)
    _ = m ((c : Thread nD τ).loc main_arg3) := rfl
theorem at4_main_arg4 (c : Dev nD) : at4 m ρ c (Proc.devRef .tc main_arg4) = m ((c : Thread nD τ).loc main_arg4) :=
  calc at4 m ρ c (Proc.devRef .tc main_arg4)
    _ = at3 m ρ c (Proc.devRef .tc main_arg4) := StableHlo.after_of_writes_sub hostOps2 _ hostOps2_writes (r := main_arg4) (by decide)
    _ = at2 m ρ c (Proc.devRef .tc main_arg4) := at3_of_ne m ρ c main_arg4 (by decide)
    _ = at1 m ρ c (Proc.devRef .tc main_arg4) := (at2_arr m ρ c 2).trans (((Adapter.dat (in1 m ρ) c).arrAt_in 2 rfl _).trans (Adapter.A_eq (in1 m ρ) c 2))
    _ = at0 m ρ c (Proc.devRef .tc main_arg4) := StableHlo.after_of_writes_sub hostOps0 _ hostOps0_writes (r := main_arg4) (by decide)
    _ = m ((c : Thread nD τ).loc main_arg4) := rfl
theorem at4_main_arg5 (c : Dev nD) : at4 m ρ c (Proc.devRef .tc main_arg5) = m ((c : Thread nD τ).loc main_arg5) :=
  calc at4 m ρ c (Proc.devRef .tc main_arg5)
    _ = at3 m ρ c (Proc.devRef .tc main_arg5) := StableHlo.after_of_writes_sub hostOps2 _ hostOps2_writes (r := main_arg5) (by decide)
    _ = at2 m ρ c (Proc.devRef .tc main_arg5) := at3_of_ne m ρ c main_arg5 (by decide)
    _ = at1 m ρ c (Proc.devRef .tc main_arg5) := (at2_arr m ρ c 3).trans (((Adapter.dat (in1 m ρ) c).arrAt_in 3 rfl _).trans (Adapter.A_eq (in1 m ρ) c 3))
    _ = at0 m ρ c (Proc.devRef .tc main_arg5) := StableHlo.after_of_writes_sub hostOps0 _ hostOps0_writes (r := main_arg5) (by decide)
    _ = m ((c : Thread nD τ).loc main_arg5) := rfl
theorem at4_main_arg6 (c : Dev nD) : at4 m ρ c (Proc.devRef .tc main_arg6) = m ((c : Thread nD τ).loc main_arg6) :=
  calc at4 m ρ c (Proc.devRef .tc main_arg6)
    _ = at3 m ρ c (Proc.devRef .tc main_arg6) := StableHlo.after_of_writes_sub hostOps2 _ hostOps2_writes (r := main_arg6) (by decide)
    _ = at2 m ρ c (Proc.devRef .tc main_arg6) := at3_of_ne m ρ c main_arg6 (by decide)
    _ = at1 m ρ c (Proc.devRef .tc main_arg6) := (at2_arr m ρ c 4).trans (((Adapter.dat (in1 m ρ) c).arrAt_in 4 rfl _).trans (Adapter.A_eq (in1 m ρ) c 4))
    _ = at0 m ρ c (Proc.devRef .tc main_arg6) := StableHlo.after_of_writes_sub hostOps0 _ hostOps0_writes (r := main_arg6) (by decide)
    _ = m ((c : Thread nD τ).loc main_arg6) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Adapter.dat (in1 m ρ) c
  | ⟨1, _⟩ => fun c => Accum.dat (in2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tend (c : Dev nD) : sProp 𝕄 := iprop(StableHlo.held (c : Thread nD τ) (Pipeline.ucRefs τ sig) (at4 m ρ c) ∗ ∃ r, prngReg c r)

/-! ## The regions as segments -/

set_option backward.isDefEq.respectTransparency.types false in
/-- The first region: entered with every unscoped buffer at `at1`, left at `at2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Adapter.body_obligation (in1 m ρ) c).loose
  hwaits := Pipeline.hwaits_of_owed_zero _ _ _ _ L lv 0 fun _ _ => rfl
  pre c := iprop(StableHlo.held (c : Thread nD τ) (Pipeline.ucRefs τ sig) (at1 m ρ c) ∗ R c)
  post c := iprop(StableHlo.held (c : Thread nD τ) (Pipeline.ucRefs τ sig) (at2 m ρ c) ∗ R c)
  X c := iprop(∃ r, prngReg c r)
  Y c := iprop(∃ r, prngReg c r)
  Z c := Pipeline.unscopedRest (Ix := Unit) (Name := ℕ) (U := UR sig nD τ) (Lvl := ℕ) spec0 c (in1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (in1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (in1 m ρ c) (in2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered at `at2`, left at `at3`; its invariant carries the accumulator from point to point,
    entered from the class's (the accumulator at anything) and forgotten back into it at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Accum.body_obligation (in2 m ρ) c).loose
  hwaits := Pipeline.hwaits_of_owed_zero _ _ _ _ L lv 1 fun _ _ => rfl
  pre c := iprop(StableHlo.held (c : Thread nD τ) (Pipeline.ucRefs τ sig) (at2 m ρ c) ∗ R c)
  post c := iprop(StableHlo.held (c : Thread nD τ) (Pipeline.ucRefs τ sig) (at3 m ρ c) ∗ R c)
  X c := iprop(∃ r, prngReg c r)
  Y c := iprop(∃ r, prngReg c r)
  Z c := Pipeline.unscopedRest (Ix := Unit) (Name := ℕ) (U := UR sig nD τ) (Lvl := ℕ) spec1 c (in2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (in2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Accum.hin (in2 m ρ) c)
    unfold Pipeline.ΦA
    iintro ⟨Hp, -, Hr⟩
    isplitl [Hr]; · iexact Hr
    iexact Hp
  hout c := by
    rw [Pipeline.ownSems0_none]
    refine (Accum.hout (in2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (in2 m ρ c) (in3 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (at0 m ρ)),
    .region (reg0 m ρ),
    .region (reg1 m ρ),
    .host (hseg hostOps2 hostOps2_sub hostOps2_fresh (at3 m ρ)) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has the result buffer at the last boundary's contents and every argument array as launched. -/
theorem run : θ_run defs (onTc (τ := τ) (main (F := F))) ⟨m, fun _ => 0, ρ⟩ (fun r => ∀ c : Dev nD,
      r.2.mem ((c.tc : Thread nD τ).loc main_v4) = at4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m ρ c) ∗ R c)) (Tₙ := Tend m ρ)
    (hch := ⟨fun _ => .rfl, fun _ => .rfl, fun _ => .rfl, fun _ => .rfl, fun c => by
      show iprop(StableHlo.held (c : Thread nD τ) (Pipeline.ucRefs τ sig) (at4 m ρ c) ∗ R c)
        ⊢ iprop(Tend m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (at0 m ρ c)
        from Pipeline.unscopedBufs_held c (at0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at4 m ρ c b)
    (hfin := fun c s' => by
      iintro ⟨⟨Hh, -⟩, HSI⟩
      unfold StableHlo.held
      imodintro
      iapply (pointsTo_read_all (Pipeline.ucRefs τ sig) (fun b => (((c : Thread nD τ)).1, b)) (at4 m ρ c) s')
      isplitl [Hh] <;> iassumption)
    (hQ := fun s h c =>
      ⟨h c _ (mem_uc main_v4 (by decide)),
       (h c _ (mem_uc main_arg0 (by decide))).trans (at4_main_arg0 m ρ c),
       (h c _ (mem_uc main_arg1 (by decide))).trans (at4_main_arg1 m ρ c),
       (h c _ (mem_uc main_arg2 (by decide))).trans (at4_main_arg2 m ρ c),
       (h c _ (mem_uc main_arg3 (by decide))).trans (at4_main_arg3 m ρ c),
       (h c _ (mem_uc main_arg4 (by decide))).trans (at4_main_arg4 m ρ c),
       (h c _ (mem_uc main_arg5 (by decide))).trans (at4_main_arg5 m ρ c),
       (h c _ (mem_uc main_arg6 (by decide))).trans (at4_main_arg6 m ρ c)⟩)

end Cert.Kernel.Whole

end
-- ==== Proof.AdapterBody.lean ====
/-
  The first kernel region: the adapted weight, one 1024 x 1024 tile per grid point.

  At grid point (i, j) the body loads the tile (i, j) of W, the row blocks i of a0 and a1 (1024 x 16) and the column
  blocks j of b0 and b1 (16 x 1024), and stores, through the whole output tile, the value
  W + (c (a0 b0)) (c (a1 b1)) narrowed to the output's format. Nothing else is written and nothing is kept between
  points, so the tile the body leaves is one function of the five tiles it loaded.
-/
import proofs.«178012_j56581899157528_2_alg».proof.Proof.Gen.KernelIdeal.Launch
import proofs.«178012_j56581899157528_2_alg».proof.Proof.Gen.KernelIdeal.Skeleton
import proofs.«178012_j56581899157528_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Adapter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The whole-tile rectangles the body loads and stores through. -/
abbrev rT : Rect S1024x1024 := Rect.unit (s := S1024x1024) ![0, 0] S1024x1024.size inb_S1024x1024_S1024x1024_0_0
abbrev rA : Rect S1024x16 := Rect.unit (s := S1024x16) ![0, 0] S1024x16.size inb_S1024x16_S1024x16_0_0
abbrev rB : Rect S16x1024 := Rect.unit (s := S16x1024) ![0, 0] S16x1024.size inb_S16x1024_S16x1024_0_0

/-- The output tile after the body, from the five input tiles: its one store, through the whole tile. -/
def tile (w : Vec F S1024x1024 .f32) (a0 : Vec F S1024x16 .f32) (b0 : Vec F S16x1024 .f32) (a1 : Vec F S1024x16 .f32)
    (b1 : Vec F S16x1024 .f32) : Vec F S1024x1024 .bf16 :=
  View.canon [⟨rT, k0_pay1 (View.ld a0 rA) (View.ld b0 rB) (View.ld a1 rA) (View.ld b1 rB) (View.ld w rT)⟩]

/-- The one store goes through the whole tile, so it covers it. -/
theorem tile_cover (p : Vec F S1024x1024 .bf16) (y : S1024x1024.Idx) :
    ∃ pc ∈ ([⟨rT, p⟩] : List (View.Piece (Elt F) S1024x1024 .bf16)), y ∈ pc.1.set :=
  ⟨_, List.mem_cons_self, View.mem_set_unit_zero (by funext a; fin_cases a <;> rfl) inb_S1024x1024_S1024x1024_0_0 y⟩

set_option maxHeartbeats 2000000 in
/-- The body on whole staging buffers, the five inputs at their tiles and the output at anything, runs to the end
    leaving the inputs as they were and the output at `tile` of them. -/
theorem body_triple (c : Dev nD) (E : Set ℕ) (i : grid0.Coords)
    (arg2 : Memref sig .tc .vmem S1024x1024 .f32) (harg2 : arg2.IsWhole) (arg3 : Memref sig .tc .vmem S1024x16 .f32) (harg3 : arg3.IsWhole)
    (arg4 : Memref sig .tc .vmem S16x1024 .f32) (harg4 : arg4.IsWhole) (arg5 : Memref sig .tc .vmem S1024x16 .f32) (harg5 : arg5.IsWhole)
    (arg6 : Memref sig .tc .vmem S16x1024 .f32) (harg6 : arg6.IsWhole) (arg7 : Memref sig .tc .vmem S1024x1024 .bf16) (harg7 : arg7.IsWhole)
    (x0 : Vec F S1024x1024 .f32) (x1 : Vec F S1024x16 .f32) (x2 : Vec F S16x1024 .f32) (x3 : Vec F S1024x16 .f32) (x4 : Vec F S16x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (tile x0 x1 x2 x3 x4)) -∗ K ⟨⟩))
      ⊢ wp frame (wpE (defs₀ (F := F)) Variants.none c none) E
          (cc0__build_kernel_body i arg2 harg2 arg3 harg3 arg4 harg4 arg5 harg5 arg6 harg6 arg7 harg7) K := by
  simp only [cc0__build_kernel_body_eq_skeleton]; unfold cc0__build_kernel_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile_cover _)

end Cert.KernelIdeal.Adapter

end
-- ==== Proof.AdapterData.lean ====
/-
  The first kernel region's proof data and its body obligation.

  The region's arrays are what it finds on entry. After the body at point t every input's staging buffer still holds
  the tile of its array the point's index map selects, and the output's holds the adapted-weight tile computed from
  those five tiles; nothing is carried between points and nothing is owed.
-/
import proofs.«178012_j56581899157528_2_alg».proof.Proof.AdapterBody

set_option maxRecDepth 16384

noncomputable section

namespace Cert.KernelIdeal.Adapter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's tile at point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: arrays as found; each input's buffer left at its tile, the output's at the adapted-weight tile; the
    scoped rest and the generator register pass through untouched. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => tile (blk V c 0 t) (blk V c 1 t) (blk V c 2 t) (blk V c 3 t) (blk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) :
    (dat V c).after 5 t = tile (blk V c 0 t) (blk V c 1 t) (blk V c 2 t) (blk V c 3 t) (blk V c 4 t) := by dsimp only [dat]

/-- Input window 0's current staging buffer holds its tile at every point, fetched there or not: where it is not fetched its
    block index has not moved since the point before. -/
theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
/-- Input window 1's current staging buffer holds its tile at every point, fetched there or not: where it is not fetched its
    block index has not moved since the point before. -/
theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
/-- Input window 2's current staging buffer holds its tile at every point, fetched there or not: where it is not fetched its
    block index has not moved since the point before. -/
theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
/-- Input window 3's current staging buffer holds its tile at every point, fetched there or not: where it is not fetched its
    block index has not moved since the point before. -/
theorem before_3 (c : Dev nD) (t : Fin cfg0.N) (d) : (dat V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
/-- Input window 4's current staging buffer holds its tile at every point, fetched there or not: where it is not fetched its
    block index has not moved since the point before. -/
theorem before_4 (c : Dev nD) (t : Fin cfg0.N) (d) : (dat V c).before 4 t d = blk V c 4 t :=
  ((dat V c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

set_option maxHeartbeats 2000000 in
/-- The body at any point: the inputs' buffers hold their tiles, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dat (F := F) V c) (defs₀ (F := F)) Variants.none () Set.univ := fun t => by
  rw [bigSep_W0, bigSep_W0]
  exact sound_body V c t

end Cert.KernelIdeal.Adapter

end
-- ==== Proof.AccumBody.lean ====
/-
  The second kernel region's body: one step of a matrix product accumulated over the contracted axis.

  The grid is (16, 4, 8); the last coordinate k walks the eight 512-wide slices of the contracted axis. At a point the
  body first, if k = 0, stores zero through the whole accumulator; then it loads the 1024 x 512 tile of the left
  operand and the 512 x 1024 tile of the weight, reads the accumulator back, and stores accumulator + tile product
  through the whole accumulator; last, if k = 7, it reads the accumulator back once more and stores
  accumulator + bias row (spread over the rows) through the whole output tile. Since each store goes through the
  whole buffer, a read-back sees exactly the value of the store before it. So there are three kinds of point:
  the first step (k = 0), a middle step, and the last step (k = 7).
-/
import proofs.«178012_j56581899157528_2_alg».proof.Proof.Gen.KernelIdeal.Launch
import proofs.«178012_j56581899157528_2_alg».proof.Proof.Gen.KernelIdeal.Skeleton
import proofs.«178012_j56581899157528_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Accum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The whole-buffer rectangles the body loads and stores through. -/
abbrev rT : Rect S1024x1024 := Rect.unit (s := S1024x1024) ![0, 0] S1024x1024.size inb_S1024x1024_S1024x1024_0_0
abbrev rX : Rect S1024x512 := Rect.unit (s := S1024x512) ![0, 0] S1024x512.size inb_S1024x512_S1024x512_0_0
abbrev rK : Rect S512x1024 := Rect.unit (s := S512x1024) ![0, 0] S512x1024.size inb_S512x1024_S512x1024_0_0
abbrev rB : Rect S1x1024 := Rect.unit (s := S1x1024) ![0, 0] S1x1024.size inb_S1x1024_S1x1024_0_0

theorem zero_off2 : (![0, 0] : Fin 2 → Nat) = fun _ => 0 := by funext a; fin_cases a <;> rfl

/-- The point is a first step: the contracted axis' coordinate is 0 (the body's first branch, as it computes it). -/
abbrev isFirst (i : grid1.Coords) : Prop :=
  (Scalar.cmpi .ne (Scalar.extui (Scalar.cmpi .eq (BitVec.ofNat 32 (i 2).val) 0#32)) 0#32) = 1#1
/-- The point is a last step: the coordinate is 7 (the body's second branch). -/
abbrev isLast (i : grid1.Coords) : Prop := k1_cond2 i = 1#1

/-- One accumulation step on values: the accumulator `s` plus the product of the two tiles. -/
abbrev step (x : Vec F S1024x512 .f32) (s : Vec F S1024x1024 .f32) (kb : Vec F S512x1024 .bf16) : Vec F S1024x1024 .f32 :=
  k1_pay2 (View.ld x rX) s (View.ld kb rK)
/-- The output tile of a last step: the accumulator plus the bias row. -/
abbrev emit (s : Vec F S1024x1024 .f32) (b : Vec F S1x1024 .f32) : Vec F S1024x1024 .f32 :=
  k1_pay3 s (View.ld b rB)

set_option maxHeartbeats 4000000 in
/-- A FIRST step, on whole buffers: the accumulator, at anything, ends at zero plus the tile product. -/
theorem run_first (c : Dev nD) (E : Set ℕ) (i : grid1.Coords)
    (arg3 : Memref sig .tc .vmem S1024x512 .f32) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : isFirst i) (hc1 : ¬isLast i)
    (x : Vec F S1024x512 .f32) (kb : Vec F S512x1024 .bf16) (K : PUnit → sProp 𝕄) :
    iprop(owns (c : Thread nD τ) arg3 fullShare x ∗ owns (c : Thread nD τ) arg4 fullShare kb ∗ (∃ d, owns (c : Thread nD τ) arg7 fullShare d)
        ∗ (iprop(owns (c : Thread nD τ) arg3 fullShare x ∗ owns (c : Thread nD τ) arg4 fullShare kb
            ∗ owns (c : Thread nD τ) arg7 fullShare (step x k1_pay1 kb)) -∗ K ⟨⟩))
      ⊢ wp frame (wpE (defs₀ (F := F)) Variants.none c none) E
          (cc1__main_kernel i arg3 harg3 arg4 harg4 arg5 harg5 arg6 harg6 arg7 harg7) K := by
  simp only [cc1__main_kernel_eq_skeleton]; unfold cc1__main_kernel_skel
  unfold owns
  iintro ⟨⟨%f3, %hf3, H3⟩, ⟨%f4, %hf4, H4⟩, ⟨%d7, %f7, -, H7⟩, Hk⟩
  subst hf3; subst hf4
  sl_exec (disch := first | exact hc0 | exact hc1)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  sl_unfold_run_names
  rw [View.read_writes_eq_canon _ _ _ (fun y => ⟨_, List.mem_cons_self, View.mem_set_unit_zero zero_off2 inb_S1024x1024_S1024x1024_0_0 y⟩), View.canon_cons_unit_zero zero_off2]
  simp only [View.readAt_eq_ld, View.readCov_unit_zero (S := S1024x1024) _ zero_off2, View.ld_unit_zero (S := S1024x1024) zero_off2]
  try rfl

set_option maxHeartbeats 4000000 in
/-- A MIDDLE step, on whole buffers: the accumulator, at `s`, ends at `s` plus the tile product. -/
theorem run_middle (c : Dev nD) (E : Set ℕ) (i : grid1.Coords)
    (arg3 : Memref sig .tc .vmem S1024x512 .f32) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬isFirst i) (hc1 : ¬isLast i)
    (x : Vec F S1024x512 .f32) (kb : Vec F S512x1024 .bf16) (s : Vec F S1024x1024 .f32) (K : PUnit → sProp 𝕄) :
    iprop(owns (c : Thread nD τ) arg3 fullShare x ∗ owns (c : Thread nD τ) arg4 fullShare kb ∗ owns (c : Thread nD τ) arg7 fullShare s
        ∗ (iprop(owns (c : Thread nD τ) arg3 fullShare x ∗ owns (c : Thread nD τ) arg4 fullShare kb
            ∗ owns (c : Thread nD τ) arg7 fullShare (step x s kb)) -∗ K ⟨⟩))
      ⊢ wp frame (wpE (defs₀ (F := F)) Variants.none c none) E
          (cc1__main_kernel i arg3 harg3 arg4 harg4 arg5 harg5 arg6 harg6 arg7 harg7) K := by
  simp only [cc1__main_kernel_eq_skeleton]; unfold cc1__main_kernel_skel
  unfold owns
  iintro ⟨⟨%f3, %hf3, H3⟩, ⟨%f4, %hf4, H4⟩, ⟨%f7, %hf7, H7⟩, Hk⟩
  subst hf3; subst hf4; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  iexists _; isplitr
  swap; · iexact H7
  ipureintro
  sl_unfold_run_names
  rw [View.read_writes_eq_canon _ _ _ (fun y => ⟨_, List.mem_cons_self, View.mem_set_unit_zero zero_off2 inb_S1024x1024_S1024x1024_0_0 y⟩), View.canon_cons_unit_zero zero_off2]
  simp only [View.readAt_eq_ld, View.readCov_unit_zero (S := S1024x1024) _ zero_off2, View.ld_unit_zero (S := S1024x1024) zero_off2]
  try rfl

set_option maxHeartbeats 4000000 in
/-- A LAST step, on whole buffers: the accumulator, at `s`, ends at `s` plus the tile product, and the output tile, at
    anything, at that plus the bias row. -/
theorem run_last (c : Dev nD) (E : Set ℕ) (i : grid1.Coords)
    (arg3 : Memref sig .tc .vmem S1024x512 .f32) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬isFirst i) (hc1 : isLast i)
    (x : Vec F S1024x512 .f32) (kb : Vec F S512x1024 .bf16) (b : Vec F S1x1024 .f32) (s : Vec F S1024x1024 .f32) (K : PUnit → sProp 𝕄) :
    iprop(owns (c : Thread nD τ) arg3 fullShare x ∗ owns (c : Thread nD τ) arg4 fullShare kb ∗ owns (c : Thread nD τ) arg5 fullShare b ∗ (∃ d, owns (c : Thread nD τ) arg6 fullShare d) ∗ owns (c : Thread nD τ) arg7 fullShare s
        ∗ (iprop(owns (c : Thread nD τ) arg3 fullShare x ∗ owns (c : Thread nD τ) arg4 fullShare kb ∗ owns (c : Thread nD τ) arg5 fullShare b
            ∗ owns (c : Thread nD τ) arg6 fullShare (emit (step x s kb) b) ∗ owns (c : Thread nD τ) arg7 fullShare (step x s kb)) -∗ K ⟨⟩))
      ⊢ wp frame (wpE (defs₀ (F := F)) Variants.none c none) E
          (cc1__main_kernel i arg3 harg3 arg4 harg4 arg5 harg5 arg6 harg6 arg7 harg7) K := by
  simp only [cc1__main_kernel_eq_skeleton]; unfold cc1__main_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  subst hf3; subst hf4; subst hf5; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (fun y => ⟨_, List.mem_cons_self, View.mem_set_unit_zero zero_off2 inb_S1024x1024_S1024x1024_0_0 y⟩), View.canon_cons_unit_zero zero_off2]
    simp only [View.readAt_eq_ld, View.readCov_unit_zero (S := S1024x1024) _ zero_off2, View.ld_unit_zero (S := S1024x1024) zero_off2]
    try rfl
  iexists _; isplitr
  swap; · iexact H7
  ipureintro
  sl_unfold_run_names
  rw [View.read_writes_eq_canon _ _ _ (fun y => ⟨_, List.mem_cons_self, View.mem_set_unit_zero zero_off2 inb_S1024x1024_S1024x1024_0_0 y⟩), View.canon_cons_unit_zero zero_off2]
  simp only [View.readAt_eq_ld, View.readCov_unit_zero (S := S1024x1024) _ zero_off2, View.ld_unit_zero (S := S1024x1024) zero_off2]
  try rfl

end Cert.KernelIdeal.Accum

end
-- ==== Proof.AccumData.lean ====
/-
  The second kernel region's proof data and its body obligation.

  The accumulator lives in a scratch buffer the kernel keeps from one grid point to the next. Write acc n for what it
  holds after point n: at a point whose contracted-axis coordinate is 0 it is zero plus that point's tile product,
  at every other point what point n - 1 left plus that point's tile product. The region's invariant before point
  n + 1 names the accumulator at acc n (before point 0 it holds anything). The output tile is stored only at the
  points whose coordinate is 7 — the points at which it is written back — and there it is acc n plus the bias row;
  at the other points the output's staging buffer is handed back as it was found.
-/
import proofs.«178012_j56581899157528_2_alg».proof.Proof.AccumBody

set_option maxRecDepth 16384

noncomputable section

namespace Cert.KernelIdeal.Accum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's tile at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The branch conditions over the grid -/

theorem first_iff : ∀ t : Fin cfg1.N, isFirst (grid1.coords t) ↔ t.val % 8 = 0 :=
  (by decide +kernel : ∀ t : Fin grid1.N, isFirst (grid1.coords t) ↔ t.val % 8 = 0)
theorem last_iff : ∀ t : Fin cfg1.N, isLast (grid1.coords t) ↔ t.val % 8 = 7 :=
  (by decide +kernel : ∀ t : Fin grid1.N, isLast (grid1.coords t) ↔ t.val % 8 = 7)
/-- Away from the last steps the output window is idle and is not written back; at them it is live. -/
theorem out_idle : ∀ t : Fin cfg1.N, ¬isLast (grid1.coords t) → cfg1.idle 3 (grid1.coords t) = true := by decide +kernel
theorem out_noFlush : ∀ t : Fin cfg1.N, ¬isLast (grid1.coords t) → (cfg1.win 3).flush t = false := by decide +kernel
theorem out_live : ∀ t : Fin cfg1.N, isLast (grid1.coords t) → cfg1.idle 3 (grid1.coords t) = false := by decide +kernel

/-! ## The accumulator point by point -/

/-- The accumulator after point n. -/
def acc (c : Dev nD) : (n : ℕ) → n < cfg1.N → Vec F S1024x1024 .f32
  | 0, h => step (blk V c 0 ⟨0, h⟩) k1_pay1 (blk V c 1 ⟨0, h⟩)
  | n + 1, h => step (blk V c 0 ⟨n + 1, h⟩) (if (n + 1) % 8 = 0 then k1_pay1 else acc c n (Nat.lt_of_succ_lt h)) (blk V c 1 ⟨n + 1, h⟩)

theorem acc_zero (c : Dev nD) (h : 0 < cfg1.N) : acc V c 0 h = step (blk V c 0 ⟨0, h⟩) k1_pay1 (blk V c 1 ⟨0, h⟩) := rfl
theorem acc_succ (c : Dev nD) (n : ℕ) (h : n + 1 < cfg1.N) :
    acc V c (n + 1) h = step (blk V c 0 ⟨n + 1, h⟩) (if (n + 1) % 8 = 0 then k1_pay1 else acc V c n (Nat.lt_of_succ_lt h)) (blk V c 1 ⟨n + 1, h⟩) := rfl

theorem acc_first (c : Dev nD) (t : Fin cfg1.N) (h : t.val % 8 = 0) :
    acc V c t.val t.isLt = step (blk V c 0 t) k1_pay1 (blk V c 1 t) := by
  obtain ⟨n, hn⟩ := t
  cases n with
  | zero => rfl
  | succ n => exact congrArg (fun s => step (blk V c 0 ⟨n + 1, hn⟩) s (blk V c 1 ⟨n + 1, hn⟩)) (if_pos h)

theorem acc_next (c : Dev nD) (t : Fin cfg1.N) (h : ¬t.val % 8 = 0) :
    acc V c t.val t.isLt
      = step (blk V c 0 t) (acc V c (t.val - 1) (Nat.lt_of_le_of_lt (Nat.sub_le _ _) t.isLt)) (blk V c 1 t) := by
  obtain ⟨n, hn⟩ := t
  cases n with
  | zero => exact absurd (Nat.zero_mod _) h
  | succ n => exact congrArg (fun s => step (blk V c 0 ⟨n + 1, hn⟩) s (blk V c 1 ⟨n + 1, hn⟩)) (if_neg h)

/-! ## The invariant -/

/-- The accumulator's scratch buffer, whole. -/
abbrev scM : Memref sig .tc .vmem S1024x1024 .f32 := Memref.whole cc1_scratch0

/-- The core's scoped buffers that are neither a staging buffer of this region nor the accumulator (the first region's
    staging buffers), each at some contents, beside a resource `S` for the accumulator. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S)

theorem restWith_mono (c : Dev nD) {S S' : sProp 𝕄} (h : S ⊢ S') : restWith (F := F) c S ⊢ restWith c S' := by
  unfold restWith
  iintro ⟨A0, A1, A2, A3, A4, A5, A6, A7, A8, A9, A10, A11, HS⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  iapply h; iexact HS

/-- The accumulator's resource taken out of the rest, with the way to put another one back. -/
theorem restWith_swap (c : Dev nD) (S S' : sProp 𝕄) : restWith (F := F) c S ⊢ iprop(S ∗ (S' -∗ restWith c S')) := by
  unfold restWith
  iintro ⟨A0, A1, A2, A3, A4, A5, A6, A7, A8, A9, A10, A11, HS⟩
  isplitl [HS]; · iexact HS
  iintro HS'
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  iexact HS'

/-- The class invariant with the accumulator spelled as a buffer owned at some contents. -/
theorem PhiA_eq (c : Dev nD) :
    (Pipeline.ΦA spec1 c : sProp 𝕄) = iprop(restWith c iprop(∃ d, owns (c : Thread nD τ) scM fullShare d) ∗ (∃ r, prngReg c r)) := by
  unfold Pipeline.ΦA restWith; rw [scopedRest1_eq]; simp only [scM, owns_whole]; try rfl

/-- The invariant before position n: before the first point the class's; afterwards the accumulator at what the point
    before left. -/
def Phi (c : Dev nD) : (n : ℕ) → n ≤ cfg1.N → sProp 𝕄
  | 0, _ => Pipeline.ΦA spec1 c
  | n + 1, hn => iprop(restWith c (owns (c : Thread nD τ) scM fullShare (acc V c n hn)) ∗ (∃ r, prngReg c r))

theorem Phi_zero (c : Dev nD) (n : ℕ) (h : n ≤ cfg1.N) (hz : n = 0) : Phi V c n h = Pipeline.ΦA spec1 c := by
  subst hz; rfl
theorem Phi_succ (c : Dev nD) (n : ℕ) (hn : n < cfg1.N) :
    Phi V c (n + 1) hn = iprop(restWith c (owns (c : Thread nD τ) scM fullShare (acc V c n hn)) ∗ (∃ r, prngReg c r)) := rfl
theorem Phi_pos (c : Dev nD) (n : ℕ) (h : n ≤ cfg1.N) (hz : n ≠ 0) :
    Phi V c n h = iprop(restWith c (owns (c : Thread nD τ) scM fullShare (acc V c (n - 1) (by omega))) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => emit (acc V c t.val t.isLt) (blk V c 2 t)
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) : (dat V c).Φ t.castSucc = Phi V c t.val (Nat.le_of_lt t.isLt) := by
  dsimp only [dat]; simp only [Fin.coe_castSucc]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = emit (acc V c t.val t.isLt) (blk V c 2 t) := by dsimp only [dat]

theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_in (c : Dev nD) (t : Fin cfg1.N) (w : Fin cfg1.W) (hw : ∀ i, cfg1.idle w i = false) :
    (dat V c).leavesExact w t = owns (c : Thread nD τ) ((cfg1.win w).stage (cfg1.slots t w)) fullShare ((dat V c).after w t) := by
  unfold Dat.leavesExact; rw [hw]

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = Phi V c (t.val + 1) t.isLt from rfl, Phi_succ]
  rw [leaves_in V c t 0 (fun _ => rfl), leaves_in V c t 1 (fun _ => rfl), leaves_in V c t 2 (fun _ => rfl), after_0, after_1, after_2]
  have hN : t.val < 512 := lt_of_lt_of_eq t.isLt (show cfg1.N = 512 from N_1)
  by_cases h0 : t.val % 8 = 0
  · -- a first step
    have h1 : ¬t.val % 8 = 7 := by omega
    have hc0 : isFirst (grid1.coords t) := (first_iff t).mpr h0
    have hc1 : ¬isLast (grid1.coords t) := fun h => h1 ((last_iff t).mp h)
    rw [Dat.leavesExact_idle (dat V c) 3 t (out_idle t hc1) (out_noFlush t hc1), acc_first V c t h0]
    have hPhi : (dat V c).Φ t.castSucc ⊢ iprop(restWith c iprop(∃ d, owns (c : Thread nD τ) scM fullShare d) ∗ (∃ r, prngReg c r)) := by
      rw [Phi_castSucc V c t]
      by_cases hz : t.val = 0
      · rw [Phi_zero V c _ _ hz, PhiA_eq]
      · rw [Phi_pos V c _ _ hz]
        exact sep_mono (restWith_mono c (by iintro H; iexists _; iexact H)) .rfl
    iintro ⟨HΦ, Ho, ⟨%d0, H0⟩, ⟨%d1, H1⟩, ⟨%d2, H2⟩, H3⟩
    ihave HΦ' := hPhi $$ HΦ
    icases HΦ' with ⟨HR, Hg⟩
    ihave HR' := (restWith_swap c _ (owns (c : Thread nD τ) scM fullShare (step (blk V c 0 t) k1_pay1 (blk V c 1 t)))) $$ HR
    icases HR' with ⟨HS, Hback⟩
    iapply (run_first c Set.univ (grid1.coords t) _ _ _ _ _ _ _ _ scM (Memref.isWhole_whole _) hc0 hc1 (blk V c 0 t) (blk V c 1 t) _)
    isplitl [H0]; · iexact H0
    isplitl [H1]; · iexact H1
    isplitl [HS]; · iexact HS
    iintro ⟨H0, H1, HS⟩
    isplitl [HS Hback Hg]
    · isplitl [HS Hback]
      · iapply Hback; iexact HS
      iexact Hg
    isplitl [Ho]; · iexact Ho
    isplitl [H0]; · iexact H0
    isplitl [H1]; · iexact H1
    isplitl [H2]; · iexact H2
    iexact H3
  · have hz : t.val ≠ 0 := fun h => h0 (by rw [h])
    have hc0 : ¬isFirst (grid1.coords t) := fun h => h0 ((first_iff t).mp h)
    rw [acc_next V c t h0, Phi_castSucc V c t, Phi_pos V c _ _ hz]
    by_cases h1 : t.val % 8 = 7
    · -- a last step
      have hc1 : isLast (grid1.coords t) := (last_iff t).mpr h1
      rw [show (dat V c).leavesExact 3 t = owns (c : Thread nD τ) (st1_3 t) fullShare ((dat V c).after 3 t) from by
        unfold Dat.leavesExact; rw [out_live t hc1], after_3, acc_next V c t h0]
      iintro ⟨⟨HR, Hg⟩, Ho, ⟨%d0, H0⟩, ⟨%d1, H1⟩, ⟨%d2, H2⟩, ⟨%d3, H3⟩⟩
      ihave HR' := (restWith_swap c _ (owns (c : Thread nD τ) scM fullShare
        (step (blk V c 0 t) (acc V c (t.val - 1) (Nat.lt_of_le_of_lt (Nat.sub_le _ _) t.isLt)) (blk V c 1 t)))) $$ HR
      icases HR' with ⟨HS, Hback⟩
      iapply (run_last c Set.univ (grid1.coords t) _ _ _ _ _ _ _ _ scM (Memref.isWhole_whole _) hc0 hc1 (blk V c 0 t) (blk V c 1 t) (blk V c 2 t)
        (acc V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hback Hg]
      · isplitl [HS Hback]
        · iapply Hback; iexact HS
        iexact Hg
      isplitl [Ho]; · iexact Ho
      isplitl [H0]; · iexact H0
      isplitl [H1]; · iexact H1
      isplitl [H2]; · iexact H2
      iexact H3
    · -- a middle step
      have hc1 : ¬isLast (grid1.coords t) := fun h => h1 ((last_iff t).mp h)
      rw [Dat.leavesExact_idle (dat V c) 3 t (out_idle t hc1) (out_noFlush t hc1)]
      iintro ⟨⟨HR, Hg⟩, Ho, ⟨%d0, H0⟩, ⟨%d1, H1⟩, ⟨%d2, H2⟩, H3⟩
      ihave HR' := (restWith_swap c _ (owns (c : Thread nD τ) scM fullShare
        (step (blk V c 0 t) (acc V c (t.val - 1) (Nat.lt_of_le_of_lt (Nat.sub_le _ _) t.isLt)) (blk V c 1 t)))) $$ HR
      icases HR' with ⟨HS, Hback⟩
      iapply (run_middle c Set.univ (grid1.coords t) _ _ _ _ _ _ _ _ scM (Memref.isWhole_whole _) hc0 hc1 (blk V c 0 t) (blk V c 1 t)
        (acc V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hback Hg]
      · isplitl [HS Hback]
        · iapply Hback; iexact HS
        iexact Hg
      isplitl [Ho]; · iexact Ho
      isplitl [H0]; · iexact H0
      isplitl [H1]; · iexact H1
      isplitl [H2]; · iexact H2
      iexact H3

theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = Phi V c 0 (Nat.zero_le _) from rfl, Phi_zero V c 0 _ rfl]

/-- After the last point the invariant gives the class's back: the accumulator's named contents are forgotten. -/
theorem hout (c : Dev nD) : (dat V c).Φ (Fin.last cfg1.N) ⊢ Pipeline.ΦA spec1 c := by
  have hne : (Fin.last cfg1.N).val ≠ 0 := by rw [Fin.val_last]; have : cfg1.N = 512 := N_1; omega
  rw [show (dat V c).Φ (Fin.last cfg1.N) = Phi V c (Fin.last cfg1.N).val (Nat.le_of_lt_succ (Fin.last cfg1.N).isLt) from rfl,
    Phi_pos V c _ _ hne, PhiA_eq]
  exact sep_mono (restWith_mono c (by iintro H; iexists _; iexact H)) .rfl

end Cert.KernelIdeal.Accum

end
-- ==== Proof.Whole.lean ====
/-
  The whole program: two reshapes on the host, the two kernel regions, one reshape on the host.

  The unscoped buffers' contents are followed from the launch to the return: after the first two reshapes; after the
  first region, whose arrays then hold what its write-backs leave (the inputs as found, the adapted weight in its
  result); after the second region likewise (its result the accumulated product plus the bias row); after the last
  reshape. Every argument array is written by no host line and is an output of no region, so walking back through
  these contents each argument ends as launched; and the program's result is the last contents at its buffer.
-/
import proofs.«178012_j56581899157528_2_alg».proof.Proof.AdapterData
import proofs.«178012_j56581899157528_2_alg».proof.Proof.AccumData
import proofs.«178012_j56581899157528_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- At launch. -/
abbrev at0 : Dev nD → Valuation τ sig (Elt F) := fun c b => (s₀ m ρ).mem ((c : Dev nD), b)
/-- After the two reshapes: the first region's entry. -/
abbrev at1 : Dev nD → Valuation τ sig (Elt F) := fun c => StableHlo.after hostOps0 (at0 m ρ c)
abbrev in1 : (c : Dev nD) → (b : Ref sig .tc) → Buf (Elt F) ((c : Thread nD τ).loc b) := fun c b => at1 m ρ c b
/-- After the first region: its arrays at what the pipeline leaves, every other buffer as entered. -/
def at2 (c : Dev nD) : Valuation τ sig (Elt F) :=
  Pipeline.withArrays spec0 c (at1 m ρ c) fun w => (Adapter.dat (in1 m ρ) c).arrAt w cfg0.N
theorem at2_arr (c : Dev nD) (w : Fin cfg0.W) :
    at2 m ρ c (Proc.devRef .tc (Pipeline.arrRef spec0 w)) = (Adapter.dat (in1 m ρ) c).arrAt w cfg0.N := by
  unfold at2; exact Pipeline.withArrays_arr spec0 launch0.win.arr_inj c _ _ w
theorem at2_of_ne (c : Dev nD) (b : Ref sig .tc) (hb : ∀ w, Pipeline.arrRef spec0 w ≠ b) :
    at2 m ρ c (Proc.devRef .tc b) = at1 m ρ c (Proc.devRef .tc b) := by
  unfold at2; exact Pipeline.withArrays_of_ne spec0 c _ _ b hb
abbrev in2 : (c : Dev nD) → (b : Ref sig .tc) → Buf (Elt F) ((c : Thread nD τ).loc b) := fun c b => at2 m ρ c b
theorem left0 (c : Dev nD) (w : Fin cfg0.W) : (Adapter.dat (in1 m ρ) c).arrAt w cfg0.N = in2 m ρ c (Pipeline.arrRef spec0 w) :=
  (at2_arr m ρ c w).symm
theorem kept0 (c : Dev nD) : ∀ b, b ∉ Finset.univ.image (Pipeline.arrRef spec0) → in2 m ρ c b = in1 m ρ c b :=
  fun b hb => at2_of_ne m ρ c b fun w e => hb (Finset.mem_image.mpr ⟨w, Finset.mem_univ _, e⟩)
/-- After the second region. -/
def at3 (c : Dev nD) : Valuation τ sig (Elt F) :=
  Pipeline.withArrays spec1 c (at2 m ρ c) fun w => (Accum.dat (in2 m ρ) c).arrAt w cfg1.N
theorem at3_arr (c : Dev nD) (w : Fin cfg1.W) :
    at3 m ρ c (Proc.devRef .tc (Pipeline.arrRef spec1 w)) = (Accum.dat (in2 m ρ) c).arrAt w cfg1.N := by
  unfold at3; exact Pipeline.withArrays_arr spec1 launch1.win.arr_inj c _ _ w
theorem at3_of_ne (c : Dev nD) (b : Ref sig .tc) (hb : ∀ w, Pipeline.arrRef spec1 w ≠ b) :
    at3 m ρ c (Proc.devRef .tc b) = at2 m ρ c (Proc.devRef .tc b) := by
  unfold at3; exact Pipeline.withArrays_of_ne spec1 c _ _ b hb
abbrev in3 : (c : Dev nD) → (b : Ref sig .tc) → Buf (Elt F) ((c : Thread nD τ).loc b) := fun c b => at3 m ρ c b
theorem left1 (c : Dev nD) (w : Fin cfg1.W) : (Accum.dat (in2 m ρ) c).arrAt w cfg1.N = in3 m ρ c (Pipeline.arrRef spec1 w) :=
  (at3_arr m ρ c w).symm
theorem kept1 (c : Dev nD) : ∀ b, b ∉ Finset.univ.image (Pipeline.arrRef spec1) → in3 m ρ c b = in2 m ρ c b :=
  fun b hb => at3_of_ne m ρ c b fun w e => hb (Finset.mem_image.mpr ⟨w, Finset.mem_univ _, e⟩)
/-- After the last reshape: the return. -/
abbrev at4 : Dev nD → Valuation τ sig (Elt F) := fun c => StableHlo.after hostOps2 (at3 m ρ c)

/-! ## The arguments end as launched -/

theorem at4_main_arg0 (c : Dev nD) : at4 m ρ c (Proc.devRef .tc main_arg0) = m ((c : Thread nD τ).loc main_arg0) :=
  calc at4 m ρ c (Proc.devRef .tc main_arg0)
    _ = at3 m ρ c (Proc.devRef .tc main_arg0) := StableHlo.after_of_writes_sub hostOps2 _ hostOps2_writes (r := main_arg0) (by decide)
    _ = at2 m ρ c (Proc.devRef .tc main_arg0) := at3_of_ne m ρ c main_arg0 (by decide)
    _ = at1 m ρ c (Proc.devRef .tc main_arg0) := at2_of_ne m ρ c main_arg0 (by decide)
    _ = at0 m ρ c (Proc.devRef .tc main_arg0) := StableHlo.after_of_writes_sub hostOps0 _ hostOps0_writes (r := main_arg0) (by decide)
    _ = m ((c : Thread nD τ).loc main_arg0) := rfl
theorem at4_main_arg1 (c : Dev nD) : at4 m ρ c (Proc.devRef .tc main_arg1) = m ((c : Thread nD τ).loc main_arg1) :=
  calc at4 m ρ c (Proc.devRef .tc main_arg1)
    _ = at3 m ρ c (Proc.devRef .tc main_arg1) := StableHlo.after_of_writes_sub hostOps2 _ hostOps2_writes (r := main_arg1) (by decide)
    _ = at2 m ρ c (Proc.devRef .tc main_arg1) := at3_of_ne m ρ c main_arg1 (by decide)
    _ = at1 m ρ c (Proc.devRef .tc main_arg1) := (at2_arr m ρ c 0).trans (((Adapter.dat (in1 m ρ) c).arrAt_in 0 rfl _).trans (Adapter.A_eq (in1 m ρ) c 0))
    _ = at0 m ρ c (Proc.devRef .tc main_arg1) := StableHlo.after_of_writes_sub hostOps0 _ hostOps0_writes (r := main_arg1) (by decide)
    _ = m ((c : Thread nD τ).loc main_arg1) := rfl
theorem at4_main_arg2 (c : Dev nD) : at4 m ρ c (Proc.devRef .tc main_arg2) = m ((c : Thread nD τ).loc main_arg2) :=
  calc at4 m ρ c (Proc.devRef .tc main_arg2)
    _ = at3 m ρ c (Proc.devRef .tc main_arg2) := StableHlo.after_of_writes_sub hostOps2 _ hostOps2_writes (r := main_arg2) (by decide)
    _ = at2 m ρ c (Proc.devRef .tc main_arg2) := at3_of_ne m ρ c main_arg2 (by decide)
    _ = at1 m ρ c (Proc.devRef .tc main_arg2) := at2_of_ne m ρ c main_arg2 (by decide)
    _ = at0 m ρ c (Proc.devRef .tc main_arg2) := StableHlo.after_of_writes_sub hostOps0 _ hostOps0_writes (r := main_arg2) (by decide)
    _ = m ((c : Thread nD τ).loc main_arg2) := rfl
theorem at4_main_arg3 (c : Dev nD) : at4 m ρ c (Proc.devRef .tc main_arg3) = m ((c : Thread nD τ).loc main_arg3) :=
  calc at4 m ρ c (Proc.devRef .tc main_arg3)
    _ = at3 m ρ c (Proc.devRef .tc main_arg3) := StableHlo.after_of_writes_sub hostOps2 _ hostOps2_writes (r := main_arg3) (by decide)
    _ = at2 m ρ c (Proc.devRef .tc main_arg3) := at3_of_ne m ρ c main_arg3 (by decide)
    _ = at1 m ρ c (Proc.devRef .tc main_arg3) := (at2_arr m ρ c 1).trans (((Adapter.dat (in1 m ρ) c).arrAt_in 1 rfl _).trans (Adapter.A_eq (in1 m ρ) c 1))
    _ = at0 m ρ c (Proc.devRef .tc main_arg3) := StableHlo.after_of_writes_sub hostOps0 _ hostOps0_writes (r := main_arg3) (by decide)
    _ = m ((c : Thread nD τ).loc main_arg3) := rfl
theorem at4_main_arg4 (c : Dev nD) : at4 m ρ c (Proc.devRef .tc main_arg4) = m ((c : Thread nD τ).loc main_arg4) :=
  calc at4 m ρ c (Proc.devRef .tc main_arg4)
    _ = at3 m ρ c (Proc.devRef .tc main_arg4) := StableHlo.after_of_writes_sub hostOps2 _ hostOps2_writes (r := main_arg4) (by decide)
    _ = at2 m ρ c (Proc.devRef .tc main_arg4) := at3_of_ne m ρ c main_arg4 (by decide)
    _ = at1 m ρ c (Proc.devRef .tc main_arg4) := (at2_arr m ρ c 2).trans (((Adapter.dat (in1 m ρ) c).arrAt_in 2 rfl _).trans (Adapter.A_eq (in1 m ρ) c 2))
    _ = at0 m ρ c (Proc.devRef .tc main_arg4) := StableHlo.after_of_writes_sub hostOps0 _ hostOps0_writes (r := main_arg4) (by decide)
    _ = m ((c : Thread nD τ).loc main_arg4) := rfl
theorem at4_main_arg5 (c : Dev nD) : at4 m ρ c (Proc.devRef .tc main_arg5) = m ((c : Thread nD τ).loc main_arg5) :=
  calc at4 m ρ c (Proc.devRef .tc main_arg5)
    _ = at3 m ρ c (Proc.devRef .tc main_arg5) := StableHlo.after_of_writes_sub hostOps2 _ hostOps2_writes (r := main_arg5) (by decide)
    _ = at2 m ρ c (Proc.devRef .tc main_arg5) := at3_of_ne m ρ c main_arg5 (by decide)
    _ = at1 m ρ c (Proc.devRef .tc main_arg5) := (at2_arr m ρ c 3).trans (((Adapter.dat (in1 m ρ) c).arrAt_in 3 rfl _).trans (Adapter.A_eq (in1 m ρ) c 3))
    _ = at0 m ρ c (Proc.devRef .tc main_arg5) := StableHlo.after_of_writes_sub hostOps0 _ hostOps0_writes (r := main_arg5) (by decide)
    _ = m ((c : Thread nD τ).loc main_arg5) := rfl
theorem at4_main_arg6 (c : Dev nD) : at4 m ρ c (Proc.devRef .tc main_arg6) = m ((c : Thread nD τ).loc main_arg6) :=
  calc at4 m ρ c (Proc.devRef .tc main_arg6)
    _ = at3 m ρ c (Proc.devRef .tc main_arg6) := StableHlo.after_of_writes_sub hostOps2 _ hostOps2_writes (r := main_arg6) (by decide)
    _ = at2 m ρ c (Proc.devRef .tc main_arg6) := at3_of_ne m ρ c main_arg6 (by decide)
    _ = at1 m ρ c (Proc.devRef .tc main_arg6) := (at2_arr m ρ c 4).trans (((Adapter.dat (in1 m ρ) c).arrAt_in 4 rfl _).trans (Adapter.A_eq (in1 m ρ) c 4))
    _ = at0 m ρ c (Proc.devRef .tc main_arg6) := StableHlo.after_of_writes_sub hostOps0 _ hostOps0_writes (r := main_arg6) (by decide)
    _ = m ((c : Thread nD τ).loc main_arg6) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Adapter.dat (in1 m ρ) c
  | ⟨1, _⟩ => fun c => Accum.dat (in2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tend (c : Dev nD) : sProp 𝕄 := iprop(StableHlo.held (c : Thread nD τ) (Pipeline.ucRefs τ sig) (at4 m ρ c) ∗ ∃ r, prngReg c r)

/-! ## The regions as segments -/

set_option backward.isDefEq.respectTransparency.types false in
/-- The first region: entered with every unscoped buffer at `at1`, left at `at2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Adapter.body_obligation (in1 m ρ) c).loose
  hwaits := Pipeline.hwaits_of_owed_zero _ _ _ _ L lv 0 fun _ _ => rfl
  pre c := iprop(StableHlo.held (c : Thread nD τ) (Pipeline.ucRefs τ sig) (at1 m ρ c) ∗ R c)
  post c := iprop(StableHlo.held (c : Thread nD τ) (Pipeline.ucRefs τ sig) (at2 m ρ c) ∗ R c)
  X c := iprop(∃ r, prngReg c r)
  Y c := iprop(∃ r, prngReg c r)
  Z c := Pipeline.unscopedRest (Ix := Unit) (Name := ℕ) (U := UR sig nD τ) (Lvl := ℕ) spec0 c (in1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (in1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (in1 m ρ c) (in2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered at `at2`, left at `at3`; its invariant carries the accumulator from point to point,
    entered from the class's (the accumulator at anything) and forgotten back into it at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Accum.body_obligation (in2 m ρ) c).loose
  hwaits := Pipeline.hwaits_of_owed_zero _ _ _ _ L lv 1 fun _ _ => rfl
  pre c := iprop(StableHlo.held (c : Thread nD τ) (Pipeline.ucRefs τ sig) (at2 m ρ c) ∗ R c)
  post c := iprop(StableHlo.held (c : Thread nD τ) (Pipeline.ucRefs τ sig) (at3 m ρ c) ∗ R c)
  X c := iprop(∃ r, prngReg c r)
  Y c := iprop(∃ r, prngReg c r)
  Z c := Pipeline.unscopedRest (Ix := Unit) (Name := ℕ) (U := UR sig nD τ) (Lvl := ℕ) spec1 c (in2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (in2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Accum.hin (in2 m ρ) c)
    unfold Pipeline.ΦA
    iintro ⟨Hp, -, Hr⟩
    isplitl [Hr]; · iexact Hr
    iexact Hp
  hout c := by
    rw [Pipeline.ownSems0_none]
    refine (Accum.hout (in2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (in2 m ρ c) (in3 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (at0 m ρ)),
    .region (reg0 m ρ),
    .region (reg1 m ρ),
    .host (hseg hostOps2 hostOps2_sub hostOps2_fresh (at3 m ρ)) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has the result buffer at the last boundary's contents and every argument array as launched. -/
theorem run : θ_run defs (onTc (τ := τ) (main (F := F))) ⟨m, fun _ => 0, ρ⟩ (fun r => ∀ c : Dev nD,
      r.2.mem ((c.tc : Thread nD τ).loc main_v4) = at4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m ρ c) ∗ R c)) (Tₙ := Tend m ρ)
    (hch := ⟨fun _ => .rfl, fun _ => .rfl, fun _ => .rfl, fun _ => .rfl, fun c => by
      show iprop(StableHlo.held (c : Thread nD τ) (Pipeline.ucRefs τ sig) (at4 m ρ c) ∗ R c)
        ⊢ iprop(Tend m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (at0 m ρ c)
        from Pipeline.unscopedBufs_held c (at0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at4 m ρ c b)
    (hfin := fun c s' => by
      iintro ⟨⟨Hh, -⟩, HSI⟩
      unfold StableHlo.held
      imodintro
      iapply (pointsTo_read_all (Pipeline.ucRefs τ sig) (fun b => (((c : Thread nD τ)).1, b)) (at4 m ρ c) s')
      isplitl [Hh] <;> iassumption)
    (hQ := fun s h c =>
      ⟨h c _ (mem_uc main_v4 (by decide)),
       (h c _ (mem_uc main_arg0 (by decide))).trans (at4_main_arg0 m ρ c),
       (h c _ (mem_uc main_arg1 (by decide))).trans (at4_main_arg1 m ρ c),
       (h c _ (mem_uc main_arg2 (by decide))).trans (at4_main_arg2 m ρ c),
       (h c _ (mem_uc main_arg3 (by decide))).trans (at4_main_arg3 m ρ c),
       (h c _ (mem_uc main_arg4 (by decide))).trans (at4_main_arg4 m ρ c),
       (h c _ (mem_uc main_arg5 (by decide))).trans (at4_main_arg5 m ρ c),
       (h c _ (mem_uc main_arg6 (by decide))).trans (at4_main_arg6 m ρ c)⟩)

end Cert.KernelIdeal.Whole

end
-- ==== Proof.Spec.lean ====
/-
  The mathematical function both programs compute, on the extended reals.

  The effective weight is K[d, e] = W[d, e] + (c · ∑ r < 16, a0[d, r] · b0[r, e]) · (c · ∑ r < 16, a1[d, r] · b1[r, e])
  with c the value of the f32 word 0x3D800000, and the output is out[b, s, e] = ∑ d < 4096, x[b, s, d] · K[d, e] + bias[e].
-/
import Idealize.ShloMosaic.Lib.ValueIdx
import Idealize.ShloMosaic.PureOps.Ideal

noncomputable section

namespace Cert.Spec

open Idealize.ShloMosaic Idealize.ShloMosaic.ValueIdx

/-- The scale factor: the value the f32 word 0x3D800000 denotes. -/
abbrev c16 : EReal := Ideal.ofBits .f32 0x3D800000#32

/-- The effective weight K[d, e]: the dense weight plus the product of the two scaled rank-16 products. -/
def weight (W : (⟨2, ![4096, 4096]⟩ : Shape).Idx → EReal) (a0 : (⟨2, ![4096, 16]⟩ : Shape).Idx → EReal)
    (b0 : (⟨2, ![16, 4096]⟩ : Shape).Idx → EReal) (a1 : (⟨2, ![4096, 16]⟩ : Shape).Idx → EReal)
    (b1 : (⟨2, ![16, 4096]⟩ : Shape).Idx → EReal) (d e : Fin 4096) : EReal :=
  W (ix2 d e) + (c16 * ∑ r : Fin 16, a0 (ix2 d r) * b0 (ix2 r e)) * (c16 * ∑ r : Fin 16, a1 (ix2 d r) * b1 (ix2 r e))

/-- The output entry out[b, s, e] = ∑ d, x[b, s, d] · K[d, e] + bias[e]. -/
def out (x : (⟨3, ![8, 2048, 4096]⟩ : Shape).Idx → EReal) (bias : (⟨1, ![4096]⟩ : Shape).Idx → EReal)
    (K : Fin 4096 → Fin 4096 → EReal) (b : Fin 8) (s : Fin 2048) (e : Fin 4096) : EReal :=
  (∑ d : Fin 4096, x (ix3 b s d) * K d e) + bias (ix1 e)

end Cert.Spec

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.Payloads.lean ====
/-
  The kernel's pure values read at an entry, on the extended reals.

  The first kernel's stored block is W + (c · (a0 · b0)) · (c · (a1 · b1)) entrywise, the two matrix products taken over
  their 16 common indices; the second kernel's three stored values are the zero block, the accumulator plus a
  [1024, 512] × [512, 1024] product, and the accumulator plus the bias row repeated down the rows. A format change and a
  shape cast to the same shape do not change a value on the extended reals.
-/
import proofs.«178012_j56581899157528_2_alg».proof.Proof.Spec
import proofs.«178012_j56581899157528_2_alg».proof.Proof.Gen.KernelIdeal.Skeleton
import proofs.«178012_j56581899157528_2_alg».proof.Proof.LibPlainMatmul
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen
open Idealize.ShloMosaic Idealize.ShloMosaic.ValueIdx

/-- The [1024, 16] × [16, 1024] contraction record is the plain one. -/
theorem dot16_plain : dot_S1024x16_S16x1024_S1024x1024_1_0_0_1_n_n = DotDims.plain 1024 16 1024 := rfl

/-- The [1024, 512] × [512, 1024] contraction record is the plain one. -/
theorem dot512_plain : dot_S1024x512_S512x1024_S1024x1024_1_0_0_1_n_n = DotDims.plain 1024 512 1024 := rfl

/-- Entry (p, q) of the first kernel's stored block: W + (c · ∑ r, a0 · b0) · (c · ∑ r, a1 · b1). -/
theorem pay_weight (a0b : Vec Ideal S1024x16 .f32) (b0b : Vec Ideal S16x1024 .f32) (a1b : Vec Ideal S1024x16 .f32)
    (b1b : Vec Ideal S16x1024 .f32) (Wb : Vec Ideal S1024x1024 .f32) (p q : Fin 1024) :
    k0_pay1 (F := Ideal) a0b b0b a1b b1b Wb (ix2 p q)
      = Wb (ix2 p q) + (Cert.Spec.c16 * ∑ r : Fin 16, a0b (ix2 p r) * b0b (ix2 r q))
          * (Cert.Spec.c16 * ∑ r : Fin 16, a1b (ix2 p r) * b1b (ix2 r q)) := by
  have h0 := matmul_plain_zero_apply (φ₁ := .f32) (φ₂ := .f32) dot_S1024x16_S16x1024_S1024x1024_1_0_0_1_n_n dot16_plain
    none a0b b0b p q
  have h1 := matmul_plain_zero_apply (φ₁ := .f32) (φ₂ := .f32) dot_S1024x16_S16x1024_S1024x1024_1_0_0_1_n_n dot16_plain
    none a1b b1b p q
  exact congrArg₂ (fun u v : EReal => Wb (ix2 p q) + (Cert.Spec.c16 * u) * (Cert.Spec.c16 * v)) h0 h1

/-- The second kernel's initial accumulator block is zero at every entry. -/
theorem pay_zero (p q : Fin 1024) : k1_pay1 (F := Ideal) (ix2 p q) = 0 := by
  unfold k1_pay1
  rw [shapeCast_self]
  exact Ideal.ofBits_zero_f32

/-- Entry (p, q) of one accumulation step: the accumulator plus ∑ k < 512, x[p, k] · K[k, q]. -/
theorem pay_acc (xb : Vec Ideal S1024x512 .f32) (s : Vec Ideal S1024x1024 .f32) (kb : Vec Ideal S512x1024 .bf16)
    (p q : Fin 1024) :
    k1_pay2 (F := Ideal) xb s kb (ix2 p q) = s (ix2 p q) + ∑ k : Fin 512, xb (ix2 p k) * kb (ix2 k q) := by
  unfold k1_pay2
  simp only [shapeCast_self]
  have h := matmul_plain_zero_apply (φ₁ := .bf16) (φ₂ := .bf16) dot_S1024x512_S512x1024_S1024x1024_1_0_0_1_n_n dot512_plain
    none (truncf (F := Ideal) .bf16 (xb : FVec Ideal S1024x512 .f32) bitsLt_bf16_f32) kb p q
  exact congrArg (fun u : EReal => s (ix2 p q) + u) h

/-- Entry (p, q) of the second kernel's output block: the accumulator plus the bias row at q. -/
theorem pay_out (s : Vec Ideal S1024x1024 .f32) (b : Vec Ideal S1x1024 .f32) (p q : Fin 1024) :
    k1_pay3 (F := Ideal) s b (ix2 p q) = s (ix2 p q) + b (ix2 0 q) := by
  unfold k1_pay3
  simp only [shapeCast_self]
  exact congrArg (fun u : EReal => s (ix2 p q) + u)
    (broadcastTo_1b_ab_apply (b : (⟨2, ![1, 1024]⟩ : Shape).Idx → EReal) broadcasts_S1x1024_S1024x1024 p q)

end Cert.KernelIdeal.Pay

end
-- ==== Proof.AccumValue.lean ====
/-
  The second kernel region's result array as one function of what the region finds on entry, on the extended reals.

  Write X for the left operand's array [16384, 4096], K for the weight's [4096, 4096] and B for the bias row's
  [1, 4096] as the region finds them. Grid point n has row block n / 32, column block n / 8 mod 4 and step n mod 8.
  By induction on the point, the accumulator after point n holds at (p, q) the partial sum
  sum over d < (n mod 8 + 1) * 512 of X[row, d] * K[d, col], with row = (n / 32) * 1024 + p and
  col = (n / 8 mod 4) * 1024 + q: a first step starts from 0 + the first 512 terms, every other step adds the next
  512 terms to what the point before left. At a last step all 4096 terms are there, and the tile written back is that
  sum plus B[0, col]. The last steps' tiles cover the result array, so it ends as the whole product plus the bias row.
-/
import proofs.«178012_j56581899157528_2_alg».proof.Proof.AccumData
import proofs.«178012_j56581899157528_2_alg».proof.Proof.Payloads
import Idealize.ShloMosaic.Lib.Pipeline.Value
import Idealize.ShloMosaic.Lib.ValueIdx

set_option maxRecDepth 16384

noncomputable section

namespace Cert.KernelIdeal.AccumValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Accum Idealize.ShloMosaic.ValueIdx
open scoped BigOperators

variable (V : (c : Dev nD) → (b : Ref sig .tc) → Buf (Elt Ideal) ((c : Thread nD τ).loc b))

/-! ## The index maps over the grid, and the tiles read at an index -/

/-- Row block, column block and step of a grid point, for each window: decided once over the 512 points. -/
theorem idx_facts : ∀ t : Fin cfg1.N,
    win1_0.index t (0 : Fin 2) = t.val / 32 ∧ win1_0.index t (1 : Fin 2) = t.val % 8
    ∧ win1_1.index t (0 : Fin 2) = t.val % 8 ∧ win1_1.index t (1 : Fin 2) = t.val / 8 % 4
    ∧ win1_2.index t (0 : Fin 2) = 0 ∧ win1_2.index t (1 : Fin 2) = t.val / 8 % 4
    ∧ win1_3.index t (0 : Fin 2) = t.val / 32 ∧ win1_3.index t (1 : Fin 2) = t.val / 8 % 4 :=
  (by decide +kernel : ∀ t : Fin grid1.N, _)

/-- The left operand's tile at point t, at (p, k): the array at row (t / 32) * 1024 + p, column (t mod 8) * 512 + k. -/
theorem left_tile (c : Dev nD) (t : Fin cfg1.N) (y : S1024x512.Idx) (i : S16384x4096.Idx)
    (h0 : (i 0).val = t.val / 32 * 1024 + (y 0).val) (h1 : (i 1).val = t.val % 8 * 512 + (y 1).val) :
    (blk V c 0 t : Vec Ideal S1024x512 .f32) y = V c main_v0 i := by
  obtain ⟨e0, e1, -⟩ := idx_facts t
  show V c main_v0 (((cfg1.win 0).blk t).view.emb y) = V c main_v0 i
  refine congrArg _ (funext fun a => Fin.ext ?_)
  match a with
  | ⟨0, _⟩ => show win1_0.index t (0 : Fin 2) * 1024 + 1 * (y 0).val = (i 0).val; omega
  | ⟨1, _⟩ => show win1_0.index t (1 : Fin 2) * 512 + 1 * (y 1).val = (i 1).val; omega

/-- The weight's tile at point t, at (k, q): the array at row (t mod 8) * 512 + k, column (t / 8 mod 4) * 1024 + q. -/
theorem weight_tile (c : Dev nD) (t : Fin cfg1.N) (y : S512x1024.Idx) (i : S4096x4096.Idx)
    (h0 : (i 0).val = t.val % 8 * 512 + (y 0).val) (h1 : (i 1).val = t.val / 8 % 4 * 1024 + (y 1).val) :
    (blk V c 1 t : Vec Ideal S512x1024 .bf16) y = V c main_v2 i := by
  obtain ⟨-, -, e0, e1, -⟩ := idx_facts t
  show V c main_v2 (((cfg1.win 1).blk t).view.emb y) = V c main_v2 i
  refine congrArg _ (funext fun a => Fin.ext ?_)
  match a with
  | ⟨0, _⟩ => show win1_1.index t (0 : Fin 2) * 512 + 1 * (y 0).val = (i 0).val; omega
  | ⟨1, _⟩ => show win1_1.index t (1 : Fin 2) * 1024 + 1 * (y 1).val = (i 1).val; omega

/-- The bias row's tile at point t, at (0, q): the row at column (t / 8 mod 4) * 1024 + q. -/
theorem bias_tile (c : Dev nD) (t : Fin cfg1.N) (y : S1x1024.Idx) (i : S1x4096.Idx)
    (h1 : (i 1).val = t.val / 8 % 4 * 1024 + (y 1).val) :
    (blk V c 2 t : Vec Ideal S1x1024 .f32) y = V c main_v1 i := by
  obtain ⟨-, -, -, -, e0, e1, -⟩ := idx_facts t
  show V c main_v1 (((cfg1.win 2).blk t).view.emb y) = V c main_v1 i
  refine congrArg _ (funext fun a => Fin.ext ?_)
  match a with
  | ⟨0, _⟩ =>
    show win1_2.index t (0 : Fin 2) * 1 + 1 * (y 0).val = (i 0).val
    have hy : (y 0).val < 1 := (y 0).isLt
    have hi : (i 0).val < 1 := (i 0).isLt
    omega
  | ⟨1, _⟩ => show win1_2.index t (1 : Fin 2) * 1024 + 1 * (y 1).val = (i 1).val; omega

/-! ## The accumulator as a partial sum -/

/-- Term d of the product of X and K at (row, col); zero past the contracted axis' extent. -/
def term (X : S16384x4096.Idx → EReal) (K : S4096x4096.Idx → EReal) (row : Fin 16384) (col : Fin 4096) (d : ℕ) : EReal :=
  if h : d < 4096 then X (ix2 row ⟨d, h⟩) * K (ix2 ⟨d, h⟩ col) else 0

/-- One accumulation step at (p, q): the accumulator there plus the step's 512 terms of the product at (row, col). -/
theorem step_apply (c : Dev nD) (t : Fin cfg1.N) (s : Vec Ideal S1024x1024 .f32) (p q : Fin 1024) (row : Fin 16384)
    (col : Fin 4096) (hr : row.val = t.val / 32 * 1024 + p.val) (hc : col.val = t.val / 8 % 4 * 1024 + q.val) :
    step (blk V c 0 t) s (blk V c 1 t) (ix2 p q)
      = s (ix2 p q) + ∑ k ∈ Finset.range 512, term (V c main_v0) (V c main_v2) row col (t.val % 8 * 512 + k) := by
  refine (Pay.pay_acc _ _ _ p q).trans ?_
  refine congrArg (fun u : EReal => s (ix2 p q) + u) ?_
  rw [Finset.sum_range]
  refine Finset.sum_congr rfl fun k _ => ?_
  have hk : k.val < 512 := k.isLt
  have hlt : t.val % 8 * 512 + k.val < 4096 := by omega
  rw [View.ld_unit_zero (S := S1024x512) zero_off2, View.ld_unit_zero (S := S512x1024) zero_off2]
  unfold term
  rw [dif_pos hlt]
  exact congrArg₂ (fun (u v : EReal) => u * v)
    (left_tile V c t (ix2 p k) (ix2 row ⟨_, hlt⟩) hr rfl)
    (weight_tile V c t (ix2 k q) (ix2 ⟨_, hlt⟩ col) rfl hc)

/-- The accumulator after point n, at (p, q): the first (n mod 8 + 1) * 512 terms of the product at (row, col). -/
theorem acc_sum (c : Dev nD) (p q : Fin 1024) : ∀ (n : ℕ) (hn : n < cfg1.N) (row : Fin 16384) (col : Fin 4096),
    row.val = n / 32 * 1024 + p.val → col.val = n / 8 % 4 * 1024 + q.val →
    acc V c n hn (ix2 p q) = ∑ d ∈ Finset.range ((n % 8 + 1) * 512), term (V c main_v0) (V c main_v2) row col d := by
  intro n
  induction n with
  | zero =>
    intro hn row col hr hc
    rw [acc_zero]
    refine (step_apply V c ⟨0, hn⟩ _ p q row col hr hc).trans ?_
    rw [Pay.pay_zero, zero_add]
    refine Finset.sum_congr rfl fun k _ => ?_
    show term (V c main_v0) (V c main_v2) row col (0 % 8 * 512 + k) = term (V c main_v0) (V c main_v2) row col k
    rw [show 0 % 8 * 512 + k = k by omega]
  | succ n ih =>
    intro hn row col hr hc
    rw [acc_succ]
    refine (step_apply V c ⟨n + 1, hn⟩ _ p q row col hr hc).trans ?_
    show (if (n + 1) % 8 = 0 then k1_pay1 (F := Ideal) else acc V c n (Nat.lt_of_succ_lt hn)) (ix2 p q)
      + (∑ k ∈ Finset.range 512, term (V c main_v0) (V c main_v2) row col ((n + 1) % 8 * 512 + k)) = _
    by_cases h0 : (n + 1) % 8 = 0
    · rw [if_pos h0, Pay.pay_zero, zero_add, h0]
      refine Finset.sum_congr rfl fun k _ => ?_
      rw [show 0 * 512 + k = k by omega]
    · rw [if_neg h0, ih (Nat.lt_of_succ_lt hn) row col (by omega) (by omega),
        show ((n + 1) % 8 + 1) * 512 = (n % 8 + 1) * 512 + 512 by omega, Finset.sum_range_add,
        show (n + 1) % 8 * 512 = (n % 8 + 1) * 512 by omega]

/-! ## The result array -/

/-- The whole product of X and K plus the bias row B, entry by entry. -/
def productOf (X : S16384x4096.Idx → EReal) (K : S4096x4096.Idx → EReal) (B : S1x4096.Idx → EReal) :
    S16384x4096.Idx → EReal := fun j =>
  (∑ d : Fin 4096, X (ix2 (j 0) d) * K (ix2 d (j 1))) + B (ix2 (0 : Fin 1) (j 1))

/-- What the region's result array ends holding: the whole product plus the bias row, of the arrays it finds. -/
def product (c : Dev nD) : S16384x4096.Idx → EReal := productOf (V c main_v0) (V c main_v2) (V c main_v1)

/-- The array index of entry (p, q) of the result tile grid point t writes back. -/
abbrev at3 (t : Fin cfg1.N) (p q : Fin 1024) : S16384x4096.Idx := ((cfg1.win 3).blk t).view.emb (ix2 p q)

/-- WHAT A LAST STEP WRITES BACK is its tile of `product`. -/
theorem flushed_eq (c : Dev nD) (t : Fin cfg1.N) (hf : (cfg1.win 3).flush t = true) :
    (dat V c).flushed 3 t = ((cfg1.win 3).blk t).view.read (Elt Ideal) (product V c) := by
  have h7 : t.val % 8 = 7 := (flush1_3 t).mp hf
  obtain ⟨-, -, -, -, -, -, e0, e1⟩ := idx_facts t
  show (cfg1.win 3).cut (grid1.coords t) ((dat V c).after 3 t) = _
  rw [after_3]
  funext y
  obtain ⟨p, q, rfl⟩ : ∃ (p q : Fin 1024), y = (ix2 p q : S1024x1024.Idx) :=
    ⟨y 0, y 1, eq_ix2 (n0 := 1024) (n1 := 1024) y⟩
  have hx : (cfg1.win 3).xinj (grid1.coords t) (ix2 p q : S1024x1024.Idx) = (ix2 p q : S1024x1024.Idx) := by
    funext a; match a with | ⟨0, _⟩ => rfl | ⟨1, _⟩ => rfl
  have hrow : (at3 t p q 0).val = t.val / 32 * 1024 + p.val := by
    show win1_3.index t (0 : Fin 2) * 1024 + 1 * p.val = _; omega
  have hcol : (at3 t p q 1).val = t.val / 8 % 4 * 1024 + q.val := by
    show win1_3.index t (1 : Fin 2) * 1024 + 1 * q.val = _; omega
  show k1_pay3 (F := Ideal) (acc V c t.val t.isLt) (View.ld (blk V c 2 t) rB)
      ((cfg1.win 3).xinj (grid1.coords t) (ix2 p q : S1024x1024.Idx)) = product V c (at3 t p q)
  refine ((congrArg _ hx).trans (Pay.pay_out _ _ p q)).trans ?_
  rw [View.ld_unit_zero (S := S1x1024) zero_off2,
    acc_sum V c p q t.val t.isLt (at3 t p q 0) (at3 t p q 1) hrow hcol, h7,
    bias_tile V c t (ix2 (0 : Fin 1) q) (ix2 (0 : Fin 1) (at3 t p q 1)) hcol]
  show _ = productOf (V c main_v0) (V c main_v2) (V c main_v1) (at3 t p q)
  unfold productOf
  refine congrArg₂ (fun (u v : EReal) => u + v) ?_ rfl
  rw [show (7 + 1) * 512 = 4096 from rfl, Finset.sum_range]
  refine Finset.sum_congr rfl fun d _ => ?_
  unfold term
  rw [dif_pos d.isLt]

/-- An index of the array is in point t's tile iff each coordinate is in the tile's range on its axis. -/
theorem mem_tile (t : Fin cfg1.N) (i : S16384x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v3).slice (win1_3.rect t)).set ↔ _
  rw [View.set_slice_whole, Rect.mem_set_unit]
  exact Iff.rfl

/-- Every index of the result array is in the tile of the last step of its row and column block. -/
theorem covered (i : S16384x4096.Idx) :
    ∃ t : Fin cfg1.N, (cfg1.win 3).flush t = true ∧ i ∈ ((cfg1.win 3).blk t).view.set := by
  have hi0 : (i 0).val < 16384 := (i 0).isLt
  have hi1 : (i 1).val < 4096 := (i 1).isLt
  have hlt : (i 0).val / 1024 * 32 + (i 1).val / 1024 * 8 + 7 < cfg1.N := by rw [show cfg1.N = 512 from N_1]; omega
  obtain ⟨-, -, -, -, -, -, e0, e1⟩ := idx_facts ⟨_, hlt⟩
  refine ⟨⟨_, hlt⟩, (flush1_3 _).mpr (by show ((i 0).val / 1024 * 32 + (i 1).val / 1024 * 8 + 7) % 8 = 7; omega), ?_⟩
  rw [mem_tile]
  intro a
  match a with
  | ⟨0, _⟩ =>
    show win1_3.index ⟨_, hlt⟩ (0 : Fin 2) * 1024 ≤ (i 0).val ∧ (i 0).val < win1_3.index ⟨_, hlt⟩ (0 : Fin 2) * 1024 + 1024
    rw [e0]; show ((i 0).val / 1024 * 32 + (i 1).val / 1024 * 8 + 7) / 32 * 1024 ≤ (i 0).val ∧ (i 0).val < ((i 0).val / 1024 * 32 + (i 1).val / 1024 * 8 + 7) / 32 * 1024 + 1024
    omega
  | ⟨1, _⟩ =>
    show win1_3.index ⟨_, hlt⟩ (1 : Fin 2) * 1024 ≤ (i 1).val ∧ (i 1).val < win1_3.index ⟨_, hlt⟩ (1 : Fin 2) * 1024 + 1024
    rw [e1]; show ((i 0).val / 1024 * 32 + (i 1).val / 1024 * 8 + 7) / 8 % 4 * 1024 ≤ (i 1).val ∧ (i 1).val < ((i 0).val / 1024 * 32 + (i 1).val / 1024 * 8 + 7) / 8 % 4 * 1024 + 1024
    omega

/-- The region's result array after the run. -/
theorem result_array (c : Dev nD) : (dat (F := Ideal) V c).arrAt 3 cfg1.N = product V c :=
  (dat V c).arrAt_eq_of_cover 3 (product V c) (fun t hf => flushed_eq V c t hf) covered

end Cert.KernelIdeal.AccumValue

end
-- ==== Proof.AdapterValue.lean ====
/-
  The first kernel region's output array, entry by entry.

  Grid point (i, j) writes back the 1024 x 1024 tile (i, j) of the output; that tile is computed from the tile (i, j) of
  W, the row blocks i of a0 and a1 and the column blocks j of b0 and b1, so its entry (p, q) is the adapted weight
  K[1024 i + p, 1024 j + q] of the whole arrays. The sixteen tiles cover the array, so the array ends holding K.
-/
import proofs.«178012_j56581899157528_2_alg».proof.Proof.AdapterData
import proofs.«178012_j56581899157528_2_alg».proof.Proof.Payloads
import proofs.«178012_j56581899157528_2_alg».proof.Proof.Spec
import proofs.«178012_j56581899157528_2_alg».proof.Proof.Gen.KernelIdeal.Points
import Idealize.ShloMosaic.Lib.Pipeline.Value

set_option maxRecDepth 16384

noncomputable section

namespace Cert.KernelIdeal.AdapterValue

open Cert.KernelIdeal Cert.KernelIdeal.Gen Cert.KernelIdeal.Adapter
open Idealize.ShloMosaic Idealize.ShloMosaic.TcCoe Idealize.SL.Sem Idealize.ShloMosaic.ValueIdx
open Idealize.ShloMosaic.Pipeline (Dat)

-- the TensorCore's buffer contents when the region is entered
variable (V : (c : Dev nD) → (b : Ref sig .tc) → Buf (Elt Ideal) ((c : Thread nD τ).loc b))

theorem offsets_zero : (![0, 0] : Fin 2 → Nat) = fun _ => 0 := funext fun a => by fin_cases a <;> rfl

/-- The adapted weight of the arrays the region finds, as an array over the output's indices. -/
def K (c : Dev nD) : S4096x4096.Idx → EReal := fun j =>
  Cert.Spec.weight (V c main_arg1) (V c main_arg3) (V c main_arg4) (V c main_arg5) (V c main_arg6) (j 0) (j 1)

/-- The index maps over the sixteen grid points: W's tile moves with the output's, a0's and a1's row block is the
    output's row block, b0's and b1's column block is the output's column block, and the output's block indices are
    below 4. -/
theorem idx_facts : ∀ t : Fin cfg0.N, win0_0.index t (0 : Fin 2) = win0_5.index t (0 : Fin 2)
    ∧ win0_0.index t (1 : Fin 2) = win0_5.index t (1 : Fin 2)
    ∧ win0_1.index t (0 : Fin 2) = win0_5.index t (0 : Fin 2)
    ∧ win0_1.index t (1 : Fin 2) = 0
    ∧ win0_2.index t (0 : Fin 2) = 0
    ∧ win0_2.index t (1 : Fin 2) = win0_5.index t (1 : Fin 2)
    ∧ win0_3.index t (0 : Fin 2) = win0_5.index t (0 : Fin 2)
    ∧ win0_3.index t (1 : Fin 2) = 0
    ∧ win0_4.index t (0 : Fin 2) = 0
    ∧ win0_4.index t (1 : Fin 2) = win0_5.index t (1 : Fin 2)
    ∧ win0_5.index t (0 : Fin 2) ≤ 3
    ∧ win0_5.index t (1 : Fin 2) ≤ 3 :=
  (by decide +kernel : ∀ t : Fin grid0.N, _)

/-- Every tile of the output is some grid point's. -/
theorem idx_onto : ∀ (q0 q1 : Fin 4), ∃ t : Fin cfg0.N, win0_5.index t = ![q0.val, q1.val] :=
  (by decide +kernel : ∀ (q0 q1 : Fin 4), ∃ t : Fin grid0.N, win0_5.index t = ![q0.val, q1.val])

/-- The array index of entry (p, q) of the output tile grid point t writes back. -/
abbrev at5 (t : Fin cfg0.N) (p q : Fin 1024) : S4096x4096.Idx := ((cfg0.win 5).blk t).view.emb (ix2 p q)

/-- What grid point t writes back is tile t of the adapted weight of the arrays the region finds. -/
theorem flushed_eq (c : Dev nD) (t : Fin cfg0.N) :
    (dat V c).flushed 5 t = ((cfg0.win 5).blk t).view.read (Elt Ideal) (K V c) := by
  show (cfg0.win 5).cut (grid0.coords t) ((dat V c).after 5 t) = _
  rw [after_5]
  unfold tile
  rw [View.canon_unit_zero offsets_zero]
  simp only [View.ld_unit_zero (S := S1024x1024) offsets_zero, View.ld_unit_zero (S := S1024x16) offsets_zero,
    View.ld_unit_zero (S := S16x1024) offsets_zero]
  funext y
  obtain ⟨p, q, rfl⟩ : ∃ (p q : Fin 1024), y = (ix2 p q : S1024x1024.Idx) :=
    ⟨y 0, y 1, eq_ix2 (n0 := 1024) (n1 := 1024) y⟩
  have hx : (win0 5).xinj (grid0.coords t) (ix2 p q : S1024x1024.Idx) = (ix2 p q : S1024x1024.Idx) := by
    funext a; match a with | ⟨0, _⟩ => rfl | ⟨1, _⟩ => rfl
  obtain ⟨f00, f01, f10, f11, f20, f21, f30, f31, f40, f41, b0, b1⟩ := idx_facts t
  have hW : blk V c 0 t (ix2 p q : S1024x1024.Idx) = V c main_arg1 (ix2 (at5 t p q 0) (at5 t p q 1)) := by
    show V c main_arg1 (((cfg0.win 0).blk t).view.emb (ix2 p q : S1024x1024.Idx)) = _
    refine congrArg (V c main_arg1) (funext fun a => Fin.ext ?_)
    match a with
    | ⟨0, _⟩ => show win0_0.index t (0 : Fin 2) * 1024 + 1 * p.val = win0_5.index t (0 : Fin 2) * 1024 + 1 * p.val; omega
    | ⟨1, _⟩ => show win0_0.index t (1 : Fin 2) * 1024 + 1 * q.val = win0_5.index t (1 : Fin 2) * 1024 + 1 * q.val; omega
  have hA0 : ∀ r : Fin 16, blk V c 1 t (ix2 p r : S1024x16.Idx) = V c main_arg3 (ix2 (at5 t p q 0) r) := fun r => by
    show V c main_arg3 (((cfg0.win 1).blk t).view.emb (ix2 p r : S1024x16.Idx)) = _
    refine congrArg (V c main_arg3) (funext fun a => Fin.ext ?_)
    match a with
    | ⟨0, _⟩ => show win0_1.index t (0 : Fin 2) * 1024 + 1 * p.val = win0_5.index t (0 : Fin 2) * 1024 + 1 * p.val; omega
    | ⟨1, _⟩ => show win0_1.index t (1 : Fin 2) * 16 + 1 * r.val = r.val; omega
  have hB0 : ∀ r : Fin 16, blk V c 2 t (ix2 r q : S16x1024.Idx) = V c main_arg4 (ix2 r (at5 t p q 1)) := fun r => by
    show V c main_arg4 (((cfg0.win 2).blk t).view.emb (ix2 r q : S16x1024.Idx)) = _
    refine congrArg (V c main_arg4) (funext fun a => Fin.ext ?_)
    match a with
    | ⟨0, _⟩ => show win0_2.index t (0 : Fin 2) * 16 + 1 * r.val = r.val; omega
    | ⟨1, _⟩ => show win0_2.index t (1 : Fin 2) * 1024 + 1 * q.val = win0_5.index t (1 : Fin 2) * 1024 + 1 * q.val; omega
  have hA1 : ∀ r : Fin 16, blk V c 3 t (ix2 p r : S1024x16.Idx) = V c main_arg5 (ix2 (at5 t p q 0) r) := fun r => by
    show V c main_arg5 (((cfg0.win 3).blk t).view.emb (ix2 p r : S1024x16.Idx)) = _
    refine congrArg (V c main_arg5) (funext fun a => Fin.ext ?_)
    match a with
    | ⟨0, _⟩ => show win0_3.index t (0 : Fin 2) * 1024 + 1 * p.val = win0_5.index t (0 : Fin 2) * 1024 + 1 * p.val; omega
    | ⟨1, _⟩ => show win0_3.index t (1 : Fin 2) * 16 + 1 * r.val = r.val; omega
  have hB1 : ∀ r : Fin 16, blk V c 4 t (ix2 r q : S16x1024.Idx) = V c main_arg6 (ix2 r (at5 t p q 1)) := fun r => by
    show V c main_arg6 (((cfg0.win 4).blk t).view.emb (ix2 r q : S16x1024.Idx)) = _
    refine congrArg (V c main_arg6) (funext fun a => Fin.ext ?_)
    match a with
    | ⟨0, _⟩ => show win0_4.index t (0 : Fin 2) * 16 + 1 * r.val = r.val; omega
    | ⟨1, _⟩ => show win0_4.index t (1 : Fin 2) * 1024 + 1 * q.val = win0_5.index t (1 : Fin 2) * 1024 + 1 * q.val; omega
  show k0_pay1 (F := Ideal) (blk V c 1 t) (blk V c 2 t) (blk V c 3 t) (blk V c 4 t) (blk V c 0 t)
      ((win0 5).xinj (grid0.coords t) (ix2 p q : S1024x1024.Idx)) = K V c (at5 t p q)
  refine ((congrArg _ hx).trans (Pay.pay_weight _ _ _ _ _ p q)).trans ?_
  exact congrArg₂ (· + ·) hW (congrArg₂ (· * ·)
    (congrArg (Cert.Spec.c16 * ·) (Finset.sum_congr rfl fun r _ => congrArg₂ (· * ·) (hA0 r) (hB0 r)))
    (congrArg (Cert.Spec.c16 * ·) (Finset.sum_congr rfl fun r _ => congrArg₂ (· * ·) (hA1 r) (hB1 r))))

/-- An index of the array is in grid point t's tile iff each coordinate is in the tile's range on its axis. -/
theorem mem_blk (t : Fin cfg0.N) (i : S4096x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v2).slice (win0_5.rect t)).set ↔ _
  rw [View.set_slice_whole, Rect.mem_set_unit]
  exact Iff.rfl

/-- Every index (d, e) of the array is in the tile (d / 1024, e / 1024), which some grid point writes back. -/
theorem cover (i : S4096x4096.Idx) :
    ∃ t : Fin cfg0.N, (cfg0.win 5).flush t = true ∧ i ∈ ((cfg0.win 5).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : win0_5.index t (0 : Fin 2) = (i 0).val / 1024 := congrFun ht 0
  have q1 : win0_5.index t (1 : Fin 2) = (i 1).val / 1024 := congrFun ht 1
  refine ⟨t, flush0_5 t, ?_⟩
  rw [mem_blk]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 1024 ≤ (i 1).val ∧ (i 1).val < win0_5.index t (1 : Fin 2) * 1024 + 1024
    omega

/-- The output array after the region is the adapted weight of the arrays the region finds, at every index. -/
theorem weight_array (c : Dev nD) :
    (Adapter.dat (F := Ideal) V c).arrAt 5 cfg0.N = fun j =>
      Cert.Spec.weight (V c main_arg1) (V c main_arg3) (V c main_arg4) (V c main_arg5) (V c main_arg6) (j 0) (j 1) :=
  (dat V c).arrAt_eq_of_cover 5 (K V c) (fun t _ => flushed_eq V c t) cover

end Cert.KernelIdeal.AdapterValue

end
-- ==== Proof.LibLeadingAxes.lean ====
/-
  Layout operations that merge or split the two leading axes of an array, read at an index, for any extents.

  A kernel that treats a block `[a, b, c]` as a matrix of `a * b` rows casts it to `[a * b, c]`; row-major order
  keeps every element in place, so row `p * b + q` of the matrix is the pair `(p, q)` of the block. The same holds in
  the other direction (`[a * b, c] → [a, b, c]`) and for a vector split in two (`[a * b] → [a, b]`). Two more
  operations spell `x[..., None]` spread along a new last axis: a cast `[a, b] → [a, b, 1]` and a broadcast
  `[a, b, 1] → [a, b, c]`; read at `(p, q, e)` both give the operand at `(p, q)`. The row count is a parameter `n`
  with the row's position `r = p * b + q` as a hypothesis, so the lemmas apply to literal extents without
  arithmetic in the types.
-/
import Idealize.ShloMosaic.Lib.ValueLayout

noncomputable section

namespace Cert.LibLeadingAxes

open Idealize.ShloMosaic Idealize.ShloMosaic.ValueIdx

variable {α : Type}

/-- A block `[a, b, c]` cast to `[n, c]` reads, at row `r = p * b + q` and column `e`, the block at `(p, q, e)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (e : Fin c) (r : Fin n)
    (hr : r.val = p.val * b + q.val) : shapeCast ⟨2, ![n, c]⟩ x h (ix2 r e) = x (ix3 p q e) :=
  shapeCast_apply x h _ _ (by
    rw [Shape.rowMajor_val_three, Shape.rowMajor_val_two]
    show (p.val * b + q.val) * c + e.val = r.val * c + e.val
    rw [hr])

/-- A matrix `[n, c]` cast to `[a, b, c]` reads, at `(p, q, e)`, the matrix at row `r = p * b + q` and column `e`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (e : Fin c) (r : Fin n)
    (hr : r.val = p.val * b + q.val) : shapeCast ⟨3, ![a, b, c]⟩ x h (ix3 p q e) = x (ix2 r e) :=
  shapeCast_apply x h _ _ (by
    rw [Shape.rowMajor_val_three, Shape.rowMajor_val_two]
    show r.val * c + e.val = (p.val * b + q.val) * c + e.val
    rw [hr])

/-- A vector `[n]` cast to `[a, b]` reads, at `(p, q)`, the vector at position `r = p * b + q`. -/
theorem shapeCast_n_ab_apply {a b n : ℕ} (x : (⟨1, ![n]⟩ : Shape).Idx → α)
    (h : (⟨1, ![n]⟩ : Shape).ShapeCasts ⟨2, ![a, b]⟩) (p : Fin a) (q : Fin b) (r : Fin n)
    (hr : r.val = p.val * b + q.val) : shapeCast ⟨2, ![a, b]⟩ x h (ix2 p q) = x (ix1 r) :=
  shapeCast_apply x h _ _ (by
    rw [Shape.rowMajor_val_two, Shape.rowMajor_val_one]
    show r.val = p.val * b + q.val
    exact hr)

/-- A matrix `[a, b]` cast to `[a, b, 1]` reads, at `(p, q, u)`, the matrix at `(p, q)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An array `[a, b, 1]` broadcast to `[a, b, c]` reads, at `(p, q, e)`, its one entry of the pair `(p, q)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (e : Fin c) :
    broadcastTo ⟨3, ![a, b, c]⟩ v h (ix3 p q e) = v (ix3 p q (0 : Fin 1)) := by
  refine broadcastTo_apply v h (ix3 p q e) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show 0 = if (1 : ℕ) = 1 then 0 else e.val
    rw [if_pos rfl]

end Cert.LibLeadingAxes

end
-- ==== Proof.Bridge.lean ====
/-
  The idealized kernel program's result is the specification of the dense layer with the adapted weight.

  Reading the result buffer back from the return: the last reshape takes entry (b, s, e) from row b * 2048 + s of the
  second region's result array; that array holds at (r, e) the whole product of row r of the reshaped input with
  column e of the first region's result, plus the reshaped bias at e; the first region's result is the adapted weight
  W + (c a0 b0)(c a1 b1) of the argument arrays; and the first two reshapes read x[b, s, d] at row b * 2048 + s and
  bias[e] at (0, e). No host line writes an argument, so the arrays the regions find are the launch's.
-/
import proofs.«178012_j56581899157528_2_alg».proof.Proof.Whole
import proofs.«178012_j56581899157528_2_alg».proof.Proof.AccumValue
import proofs.«178012_j56581899157528_2_alg».proof.Proof.AdapterValue
import proofs.«178012_j56581899157528_2_alg».proof.Proof.LibLeadingAxes
import Idealize.ShloMosaic.Lib.StableHlo.Run

set_option maxRecDepth 16384

noncomputable section

namespace Cert.KernelIdeal.Bridge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Whole Idealize.ShloMosaic.ValueIdx
open scoped BigOperators

variable (m : (ℓ : Loc nD τ sig) → Buf (Elt Ideal) ℓ) (ρ : Dev nD → PrngReg)

/-- The dense layer's value from the launch memory. -/
def spec (c : Dev nD) : S8x2048x4096.Idx → EReal := fun i =>
  Cert.Spec.out (m ((c : Thread nD τ).loc main_arg0)) (m ((c : Thread nD τ).loc main_arg2))
    (Cert.Spec.weight (m ((c : Thread nD τ).loc main_arg1)) (m ((c : Thread nD τ).loc main_arg3)) (m ((c : Thread nD τ).loc main_arg4)) (m ((c : Thread nD τ).loc main_arg5)) (m ((c : Thread nD τ).loc main_arg6))) (i 0) (i 1) (i 2)

/-! ## What the regions find -/

theorem in1_arg1 (c : Dev nD) : in1 m ρ c main_arg1 = m ((c : Thread nD τ).loc main_arg1) :=
  (StableHlo.after_of_writes_sub hostOps0 _ hostOps0_writes (r := main_arg1) (by decide)).trans rfl
theorem in1_arg3 (c : Dev nD) : in1 m ρ c main_arg3 = m ((c : Thread nD τ).loc main_arg3) :=
  (StableHlo.after_of_writes_sub hostOps0 _ hostOps0_writes (r := main_arg3) (by decide)).trans rfl
theorem in1_arg4 (c : Dev nD) : in1 m ρ c main_arg4 = m ((c : Thread nD τ).loc main_arg4) :=
  (StableHlo.after_of_writes_sub hostOps0 _ hostOps0_writes (r := main_arg4) (by decide)).trans rfl
theorem in1_arg5 (c : Dev nD) : in1 m ρ c main_arg5 = m ((c : Thread nD τ).loc main_arg5) :=
  (StableHlo.after_of_writes_sub hostOps0 _ hostOps0_writes (r := main_arg5) (by decide)).trans rfl
theorem in1_arg6 (c : Dev nD) : in1 m ρ c main_arg6 = m ((c : Thread nD τ).loc main_arg6) :=
  (StableHlo.after_of_writes_sub hostOps0 _ hostOps0_writes (r := main_arg6) (by decide)).trans rfl

/-- The second region's left operand: the input reshaped to [16384, 4096]. -/
theorem in2_v0 (c : Dev nD) :
    (in2 m ρ c main_v0 : S16384x4096.Idx → EReal) = shapeCast S16384x4096 (m ((c : Thread nD τ).loc main_arg0)) shapeCasts_S8x2048x4096_S16384x4096 := by
  refine (at2_of_ne m ρ c main_v0 (by decide)).trans ?_
  show StableHlo.after hostOps0 (at0 m ρ c) (Proc.devRef .tc main_v0) = _
  after_results
  rfl

/-- Its bias row: the bias reshaped to [1, 4096]. -/
theorem in2_v1 (c : Dev nD) :
    (in2 m ρ c main_v1 : S1x4096.Idx → EReal) = shapeCast S1x4096 (m ((c : Thread nD τ).loc main_arg2)) shapeCasts_S4096_S1x4096 := by
  refine (at2_of_ne m ρ c main_v1 (by decide)).trans ?_
  show StableHlo.after hostOps0 (at0 m ρ c) (Proc.devRef .tc main_v1) = _
  after_results
  rfl

/-- Its weight: the first region's result, the adapted weight of the argument arrays. -/
theorem in2_v2 (c : Dev nD) :
    (in2 m ρ c main_v2 : S4096x4096.Idx → EReal) = fun j =>
      Cert.Spec.weight (m ((c : Thread nD τ).loc main_arg1)) (m ((c : Thread nD τ).loc main_arg3)) (m ((c : Thread nD τ).loc main_arg4)) (m ((c : Thread nD τ).loc main_arg5)) (m ((c : Thread nD τ).loc main_arg6)) (j 0) (j 1) := by
  refine (at2_arr m ρ c 5).trans ?_
  rw [AdapterValue.weight_array (in1 m ρ) c, in1_arg1, in1_arg3, in1_arg4, in1_arg5, in1_arg6]

/-! ## The result -/

/-- The program's result buffer at the return is the specification. -/
theorem result_eq (c : Dev nD) : (at4 m ρ c (Proc.devRef .tc main_v4) : S8x2048x4096.Idx → EReal) = spec m c := by
  have e4 : (at4 m ρ c (Proc.devRef .tc main_v4) : S8x2048x4096.Idx → EReal)
      = shapeCast S8x2048x4096 (at3 m ρ c (Proc.devRef .tc main_v3) : S16384x4096.Idx → EReal) shapeCasts_S16384x4096_S8x2048x4096 := by
    show StableHlo.after hostOps2 (at3 m ρ c) (Proc.devRef .tc main_v4) = _
    after_results
    rfl
  have e3 : (at3 m ρ c (Proc.devRef .tc main_v3) : S16384x4096.Idx → EReal) = AccumValue.product (in2 m ρ) c :=
    (at3_arr m ρ c 3).trans (AccumValue.result_array (in2 m ρ) c)
  rw [e4, e3]
  funext i
  obtain ⟨b, s, e, rfl⟩ : ∃ (b : Fin 8) (s : Fin 2048) (e : Fin 4096), i = ix3 b s e := ⟨i 0, i 1, i 2, eq_ix3 i⟩
  have hb : b.val < 8 := b.isLt
  have hs : s.val < 2048 := s.isLt
  rw [Cert.LibLeadingAxes.shapeCast_nc_abc_apply _ _ b s e ⟨b.val * 2048 + s.val, by omega⟩ rfl]
  unfold AccumValue.product
  rw [in2_v0, in2_v1, in2_v2]
  unfold AccumValue.productOf spec Cert.Spec.out
  congr 1
  · refine Finset.sum_congr rfl fun d _ => ?_
    rw [Cert.LibLeadingAxes.shapeCast_abc_nc_apply _ _ b s d ⟨b.val * 2048 + s.val, by omega⟩ rfl]
    rfl
  · exact Cert.LibLeadingAxes.shapeCast_n_ab_apply _ _ (0 : Fin 1) e e (by simp)

end Cert.KernelIdeal.Bridge

end
-- ==== Proof.RefIsSpec.lean ====
/-
  The reference program's result, entry by entry, is the specification: out[b, s, e] = ∑ d, x[b, s, d] · K[d, e] + bias[e]
  with K[d, e] = W[d, e] + (c · ∑ r, a0[d, r] · b0[r, e]) · (c · ∑ r, a1[d, r] · b1[r, e]). The reference multiplies and adds in
  the same order as the specification is written, so only the operations' readings at an index and the index
  arithmetic of the contractions and broadcasts are used.
-/
import proofs.«178012_j56581899157528_2_alg».proof.Proof.Spec
import proofs.«178012_j56581899157528_2_alg».proof.Proof.Gen.ReferenceIdeal.Read

noncomputable section

namespace Cert.ReferenceIdeal.RefSpec

open Cert.ReferenceIdeal Cert.ReferenceIdeal.Read
open Idealize.ShloMosaic Idealize.ShloMosaic.ValueIdx

/-- The outer contraction reads x at (b, s, d) … -/
theorem lidx8_eq (b : Fin 8) (s : Fin 2048) (e d : Fin 4096) : lidx_main_v8 (ix3 b s e) d = ix3 b s d := by
  funext a; match a with | ⟨0, _⟩ => rfl | ⟨1, _⟩ => rfl | ⟨2, _⟩ => rfl

/-- … and the weight at (d, e). -/
theorem ridx8_eq (b : Fin 8) (s : Fin 2048) (e d : Fin 4096) : ridx_main_v8 (ix3 b s e) d = ix2 d e := by
  funext a; match a with | ⟨0, _⟩ => rfl | ⟨1, _⟩ => rfl

/-- The first rank-16 contraction reads a0 at (d, r) … -/
theorem lidx0_eq (d e : Fin 4096) (r : Fin 16) : lidx_main_v0 (ix2 d e) r = ix2 d r := by
  funext a; match a with | ⟨0, _⟩ => rfl | ⟨1, _⟩ => rfl

/-- … and b0 at (r, e). -/
theorem ridx0_eq (d e : Fin 4096) (r : Fin 16) : ridx_main_v0 (ix2 d e) r = ix2 r e := by
  funext a; match a with | ⟨0, _⟩ => rfl | ⟨1, _⟩ => rfl

/-- The second rank-16 contraction reads a1 at (d, r) … -/
theorem lidx3_eq (d e : Fin 4096) (r : Fin 16) : lidx_main_v3 (ix2 d e) r = ix2 d r := by
  funext a; match a with | ⟨0, _⟩ => rfl | ⟨1, _⟩ => rfl

/-- … and b1 at (r, e). -/
theorem ridx3_eq (d e : Fin 4096) (r : Fin 16) : ridx_main_v3 (ix2 d e) r = ix2 r e := by
  funext a; match a with | ⟨0, _⟩ => rfl | ⟨1, _⟩ => rfl

/-- The two broadcasts of the bias read it at e. -/
theorem bias_idx_eq (b : Fin 8) (s : Fin 2048) (e : Fin 4096) : idx_main_v9 (idx_main_v10 (ix3 b s e)) = ix1 e := by
  funext a; match a with | ⟨0, _⟩ => rfl

/-- The reference's effective weight at (d, e) is the specification's. -/
theorem ref_weight (x1 : (⟨S4096x4096, .f32⟩ : BufTy).Contents (Elt Ideal)) (x3 : (⟨S4096x16, .f32⟩ : BufTy).Contents (Elt Ideal))
    (x4 : (⟨S16x4096, .f32⟩ : BufTy).Contents (Elt Ideal)) (x5 : (⟨S4096x16, .f32⟩ : BufTy).Contents (Elt Ideal))
    (x6 : (⟨S16x4096, .f32⟩ : BufTy).Contents (Elt Ideal)) (d e : Fin 4096) :
    val_main_v7 (F := Ideal) x1 x3 x4 x5 x6 (ix2 d e) = Cert.Spec.weight x1 x3 x4 x5 x6 d e := by
  rw [val_main_v7_apply, val_main_v6_apply, val_main_v2_apply, val_main_v5_apply, val_main_v1_apply, val_main_v4_apply,
    val_main_cst_apply, val_main_cst_0_apply, val_main_v0_apply, val_main_v3_apply]
  simp only [lidx0_eq, ridx0_eq, lidx3_eq, ridx3_eq]
  rfl

/-- The reference's result is the specification's output at every entry. -/
theorem ref_is_spec (x0 : (⟨S8x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x16, .f32⟩ : BufTy).Contents (Elt Ideal))
    (x4 : (⟨S16x4096, .f32⟩ : BufTy).Contents (Elt Ideal)) (x5 : (⟨S4096x16, .f32⟩ : BufTy).Contents (Elt Ideal))
    (x6 : (⟨S16x4096, .f32⟩ : BufTy).Contents (Elt Ideal)) :
    Cert.ReferenceIdeal.Read.val_main_v11 (F := Ideal) x0 x1 x2 x3 x4 x5 x6
      = fun i => Cert.Spec.out x0 x2 (Cert.Spec.weight x1 x3 x4 x5 x6) (i 0) (i 1) (i 2) := by
  funext i
  obtain ⟨b, s, e, rfl⟩ : ∃ (b : Fin 8) (s : Fin 2048) (e : Fin 4096), i = ix3 b s e := ⟨i 0, i 1, i 2, eq_ix3 i⟩
  rw [val_main_v11_apply, val_main_v8_apply, val_main_v10_apply, val_main_v9_apply, bias_idx_eq]
  simp only [lidx8_eq, ridx8_eq, ref_weight]
  rfl

end Cert.ReferenceIdeal.RefSpec

end
-- ==== Proof.lean ====
/-
  A dense layer whose weight carries a low-rank Hadamard adapter: out = x (W + (c a0 b0) ∘ (c a1 b1)) + bias, with
  c = 1/16, x of shape [8, 2048, 4096], W of shape [4096, 4096] and rank-16 factors a0, a1 ([4096, 16]) and b0, b1
  ([16, 4096]).

  The kernel program computes it in two regions. The first builds the adapted weight tile by tile (each 1024 x 1024
  tile is W's tile plus the product of the two scaled rank-16 products, narrowed to a shorter float format, which at
  the exact-real instance is the identity). The second multiplies the input, reshaped to [16384, 4096], with that
  weight: for each output tile it walks the contracted axis in eight slices of 512, accumulating the slice products
  in a scratch buffer that starts from zero, and at the eighth slice adds the bias row and writes the tile out. The
  reference computes the same weight and one whole product, then adds the bias.

  On the extended reals the two agree entry by entry because a sum over 4096 terms is the sum of its eight consecutive
  blocks of 512 terms, each added in turn to a running total that starts at zero: only associativity of addition and
  0 + a = a are used, so no finiteness of the inputs is needed. Every argument array is only read by both programs.
-/
import proofs.«178012_j56581899157528_2_alg».proof.Defs
import proofs.«178012_j56581899157528_2_alg».proof.Proof.Gen.Kernel
import proofs.«178012_j56581899157528_2_alg».proof.Proof.Gen.KernelIdeal
import proofs.«178012_j56581899157528_2_alg».proof.Proof.Gen.ReferenceIdeal
import proofs.«178012_j56581899157528_2_alg».proof.Proof.Gen.ReferenceIdeal.Run
import proofs.«178012_j56581899157528_2_alg».proof.Proof.Gen.ReferenceIdeal.Read
import proofs.«178012_j56581899157528_2_alg».proof.Proof.Gen.Pre_finite_inputs
import proofs.«178012_j56581899157528_2_alg».proof.Proof.WordWhole
import proofs.«178012_j56581899157528_2_alg».proof.Proof.Whole
import proofs.«178012_j56581899157528_2_alg».proof.Proof.Bridge
import proofs.«178012_j56581899157528_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_kernel : Cert.frame_Kernel := fun m ρ _ =>
  (θ_run Cert.Kernel.defs _ _).mono (fun _ h c => (h c).2) (Cert.Kernel.Whole.run (F := Bits) m ρ)

/-- So does the idealized one. -/
theorem frame_kernelIdeal : Cert.frame_KernelIdeal := fun m ρ _ =>
  (θ_run Cert.KernelIdeal.defs _ _).mono (fun _ h c => (h c).2) (Cert.KernelIdeal.Whole.run (F := Ideal) m ρ)

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the dense layer's value of the (shared) arguments. -/
theorem algebraic : Cert.algebraic_KernelIdeal_ReferenceIdeal := by
  intro m ρ m' ρ' _ hagree
  refine ⟨fun c => Cert.KernelIdeal.Bridge.spec m c, ?_, ?_⟩
  · exact (θ_run Cert.KernelIdeal.defs _ _).mono
      (fun r h c => ⟨(h c).1.trans (Cert.KernelIdeal.Bridge.result_eq m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v11_eq, Cert.ReferenceIdeal.RefSpec.ref_is_spec, h0, h1, h2, h3, h4, h5, h6]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
